-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S8192x4096 : Shape := ⟨2, ![8192, 4096]⟩
abbrev S8192x8192 : Shape := ⟨2, ![8192, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x8192 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096 .f32) (main_arg3 : FVec F S8192x4096 .f32) (main_arg4 : FVec F S8192x8192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_v13 main_v16
-- ==== Kernel.lean ====
abbrev S4096x1024 : Shape := ⟨2, ![4096, 1024]⟩
abbrev S4096 : Shape := ⟨1, ![4096]⟩
abbrev S8192x4096 : Shape := ⟨2, ![8192, 4096]⟩
abbrev S8192x8192 : Shape := ⟨2, ![8192, 8192]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S1x1024 : Shape := ⟨2, ![1, 1024]⟩
abbrev S4096x8192 : Shape := ⟨2, ![4096, 8192]⟩
abbrev S4096x256 : Shape := ⟨2, ![4096, 256]⟩
abbrev S1024x256 : Shape := ⟨2, ![1024, 256]⟩
abbrev S2048x512 : Shape := ⟨2, ![2048, 512]⟩
abbrev S1024x512 : Shape := ⟨2, ![1024, 512]⟩

abbrev nBuf : Space → Nat
  | .hbm => 9
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S8192x4096, .f32⟩
  | .hbm, ⟨4, _⟩ => ⟨S8192x8192, .f32⟩
  | .hbm, ⟨5, _⟩ => ⟨S1x4096, .f32⟩
  | .hbm, ⟨6, _⟩ => ⟨S4096x4096, .bf16⟩
  | .hbm, ⟨7, _⟩ => ⟨S4096x8192, .bf16⟩
  | .hbm, ⟨8, _⟩ => ⟨S4096x8192, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S4096x256, .bf16⟩
  | .local _ .vmem, ⟨9, _⟩ => ⟨S4096x256, .bf16⟩
  | .local _ .vmem, ⟨10, _⟩ => ⟨S1024x256, .f32⟩
  | .local _ .vmem, ⟨11, _⟩ => ⟨S1024x256, .f32⟩
  | .local _ .vmem, ⟨12, _⟩ => ⟨S4096x1024, .bf16⟩
  | .local _ .vmem, ⟨13, _⟩ => ⟨S4096x1024, .bf16⟩
  | .local _ .vmem, ⟨14, _⟩ => ⟨S4096x1024, .f32⟩
  | .local _ .vmem, ⟨15, _⟩ => ⟨S2048x512, .bf16⟩
  | .local _ .vmem, ⟨16, _⟩ => ⟨S2048x512, .bf16⟩
  | .local _ .vmem, ⟨17, _⟩ => ⟨S1024x512, .f32⟩
  | .local _ .vmem, ⟨18, _⟩ => ⟨S1024x512, .f32⟩
  | .local _ .vmem, ⟨19, _⟩ => ⟨S2048x1024, .f32⟩
  | .local _ .vmem, ⟨20, _⟩ => ⟨S2048x1024, .f32⟩
  | .local _ .vmem, ⟨21, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![1, 8, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1024x256_S1024x256_0_0 : ∀ a, (![0, 0] : Fin 2 → Nat) a + S1024x256.size a ≤ S1024x256.size a
  h_S1024x256 : 0 < S1024x256.numel
  packedbf16_S4096x1024_S4096x1024_0_0 : (Rect.unit (s := S4096x1024) ![0, 0] S4096x1024.size inb_S4096x1024_S4096x1024_0_0).PackedRows (EltTy.packing .bf16)
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  dot_S2048x1024_S1024x1024_S2048x1024_1_1_0_0_n_n_wf : DotDims.WF S2048x1024 S1024x1024 S2048x1024 [1] [1] [0] [0] [] []
  dot_S4096x256_S1024x256_S4096x1024_1_1_0_0_n_n_wf : DotDims.WF S4096x256 S1024x256 S4096x1024 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .bf16 = 32 ∨ (Rect.block (s := S4096x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x4096.size a
  hwx1_0 : ∀ i : grid1.Coords, EltTy.bits .bf16 = 32 ∨ (Rect.block (s := S4096x4096) S4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x4096.size a
  hwx1_1 : ∀ i : grid1.Coords, EltTy.bits .f32 = 32 ∨ (Rect.block (s := S8192x4096) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x8192.size a
  hwx1_2 : ∀ i : grid1.Coords, EltTy.bits .bf16 = 32 ∨ (Rect.block (s := S4096x8192) S4096x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S4096x8192.size a
  hwx2_0 : ∀ i : grid2.Coords, EltTy.bits .bf16 = 32 ∨ (Rect.block (s := S4096x8192) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x8192.size a
  hwx2_1 : ∀ i : grid2.Coords, EltTy.bits .f32 = 32 ∨ (Rect.block (s := S8192x8192) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S4096x8192.size a
  hwx2_2 : ∀ i : grid2.Coords, EltTy.bits .f32 = 32 ∨ (Rect.block (s := S4096x8192) S2048x1024.size (cc2_transform_2 i) (hinb2_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S4096x256_S1024x256_S4096x1024_1_1_0_0_n_n : DotDims S4096x256 S1024x256 S4096x1024 where
  lhsContracting := [1]
  rhsContracting := [1]
  lhsNonContracting := [0]
  rhsNonContracting := [0]
  lhsBatch := []
  rhsBatch := []
  wf := dot_S4096x256_S1024x256_S4096x1024_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S8192x4096 : Shape := ⟨2, ![8192, 4096]⟩
abbrev S8192x8192 : Shape := ⟨2, ![8192, 8192]⟩
abbrev S4096x4096 : Shape := ⟨2, ![4096, 4096]⟩
abbrev S1x4096 : Shape := ⟨2, ![1, 4096]⟩
abbrev S_ : Shape := ⟨0, ![]⟩
abbrev S4096x8192 : Shape := ⟨2, ![4096, 8192]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S8192x4096, .f32⟩
  | .hbm, ⟨4, _⟩ => ⟨S8192x8192, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_call1_cst : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S4096x8192 : S_.BroadcastsInDim S4096x8192 (![] : Fin 0 → Fin S4096x8192.rank)
  dot_S4096x1024_S4096x1024_S4096x4096_1_1_0_0_n_n_wf : DotDims.WF S4096x1024 S4096x1024 S4096x4096 [1] [1] [0] [0] [] []
  dot_S4096x4096_S8192x4096_S4096x8192_1_1_0_0_n_n_wf : DotDims.WF S4096x4096 S8192x4096 S4096x8192 [1] [1] [0] [0] [] []
  dot_S4096x8192_S8192x8192_S4096x8192_1_1_0_0_n_n_wf : DotDims.WF S4096x8192 S8192x8192 S4096x8192 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S8192x4096_S4096x8192_1_1_0_0_n_n : DotDims S4096x4096 S8192x4096 S4096x8192 where
  lhsContracting := [1]
  rhsContracting := [1]
  lhsNonContracting := [0]
  rhsNonContracting := [0]
  lhsBatch := []
  rhsBatch := []
  wf := dot_S4096x4096_S8192x4096_S4096x8192_1_1_0_0_n_n_wf
def dot_S4096x8192_S8192x8192_S4096x8192_1_1_0_0_n_n : DotDims S4096x8192 S8192x8192 S4096x8192 where
  lhsContracting := [1]
  rhsContracting := [1]
  lhsNonContracting := [0]
  rhsNonContracting := [0]
  lhsBatch := []
  rhsBatch := []
  wf := dot_S4096x8192_S8192x8192_S4096x8192_1_1_0_0_n_n_wf

class Facts : Prop extends Facts₀ where

variable [Facts]
-- ==== Proof.BitsSide.Layer1Body.lean ====
/-
  The first layer's region: one grid point computes one block of `relu (x · Wdᵀ + bd)`.

  The grid is 2 × 4. At point `(i, j)` the body reads a block of 2048 rows of `x` (row block `i`, all 1024 columns),
  a block of 1024 rows of `Wd` (row block `j`), the 1024 bias entries of column block `j`, and stores the
  2048 × 1024 block `(i, j)` of the result whole: the product of the two blocks over their shared minor axis, plus the
  bias row, maximum with zero. No buffer is carried from one point to the next, so the invariant is the plain one
  (the scoped rest and the generator register, untouched).

  Everything here is stated for any float instance and at a parameter `V`: the buffers' contents when the region is
  entered.
-/
import proofs.«170804_j68015102099870_2_alg».proof.Proof.Gen.Kernel.Launch
import proofs.«170804_j68015102099870_2_alg».proof.Proof.Gen.Kernel.Skeleton
import proofs.«170804_j68015102099870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the block was fetched at that
    point or kept from the one before (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The whole 2048 × 1024 block as a rectangle (the body's loads and its one store go through it). -/
abbrev rA0 : Rect S2048x1024 := Rect.unit (s := S2048x1024) ![0, 0] S2048x1024.size inb_S2048x1024_S2048x1024_0_0
abbrev rB0 : Rect S1024x1024 := Rect.unit (s := S1024x1024) ![0, 0] S1024x1024.size inb_S1024x1024_S1024x1024_0_0
abbrev rC0 : Rect S1x1024 := Rect.unit (s := S1x1024) ![0, 0] S1x1024.size inb_S1x1024_S1x1024_0_0

/-- The rectangles' offsets are zero on both axes. -/
theorem hz2 : (![0, 0] : Fin 2 → ℕ) = fun _ => 0 := by
  funext a; match a with | ⟨0, _⟩ => rfl | ⟨1, _⟩ => rfl

/-- The one store covers the output block. -/
theorem cover0 (p0 : Vec F S2048x1024 .bf16) (y : S2048x1024.Idx) :
    ∃ pc ∈ ([⟨rA0, p0⟩] : List (View.Piece (Elt F) S2048x1024 .bf16)), y ∈ pc.1.set :=
  View.cover_of_tiled [⟨rA0, p0⟩] S2048x1024.size (by rfl) y

set_option maxHeartbeats 1000000 in
/-- The body on whole staging buffers, the three inputs at contents `x0 x1 x2` and the output at anything, runs to the end
    with the inputs as they were and the output block at the payload of the three input blocks. -/
theorem sound_kernel0 (c : Dev nD) (E : Set ℕ) (i : grid0.Coords)
    (arg2 : Memref sig .tc .vmem S2048x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S2048x1024 .bf16) (harg5 : arg5.IsWhole)
    (x0 : Vec F S2048x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1 x2)) -∗ K ⟨⟩))
      ⊢ wp frame (wpE (defs₀ (F := F)) Variants.none c none) E (cc0__matmul_bias_relu_kernel i arg2 harg2 arg3 harg3 arg4 harg4 arg5 harg5) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover0 _)).trans ?_
  rw [View.canon_unit_zero hz2]
  rw [View.readAt_eq_ld, View.readAt_eq_ld, View.readAt_eq_ld,
    View.ld_unit_zero (S := S2048x1024) hz2, View.ld_unit_zero (S := S1024x1024) hz2, View.ld_unit_zero (S := S1x1024) hz2]

section
variable (V : (c : Dev nD) → (b : Ref sig .tc) → Buf (Elt F) ((c : Thread nD τ).loc b))

/-- The proof data of the first layer's pipeline on core `c`: the arrays as the region finds them; after the body at
    point `t` each input's buffer at its block and the output's at the payload of the three input blocks; the plain
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.LibReadBack.lean ====
/-
  A load that reads back a whole buffer after a sequence of stores, the LAST of which overwrote the whole buffer,
  reads that last store's payload, whatever the earlier stores were.
-/
import Idealize.ShloMosaic.Lib.Pipeline.Value

noncomputable section

namespace Idealize.ShloMosaic.LibReadBack

open Idealize.ShloMosaic

variable {Val : EltTy → Type} {S : Shape} {e : EltTy}

/-- Reading the whole shape (zero offsets, the shape's own sizes) after stores of which the most recent one wrote the whole
    shape gives that store's payload `w`: every index is under the most recent store's rectangle, so the earlier stores
    `L` are all overwritten. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Idealize.ShloMosaic.LibReadBack

end
-- ==== Proof.LibWholeStore.lean ====
/-
  Stores through the whole of a buffer: after a sequence of stores of which the LAST wrote the whole buffer, the
  buffer reads as that last store's payload, whatever it held before and whatever the earlier stores were.
-/
import Idealize.ShloMosaic.Lib.Pipeline.Value

noncomputable section

namespace Idealize.ShloMosaic.LibWholeStore

open Idealize.ShloMosaic

variable {Val : EltTy → Type} {S : Shape} {e : EltTy}

/-- Every index lies under the most recent store's rectangle when that rectangle is the whole shape. -/
theorem cover_head_whole {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- The buffer read whole after those stores is the last store's payload `w`. -/
theorem read_writes_head_whole [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (cover_head_whole h inb w L)).trans (View.canon_cons_unit_zero h inb w L)

end Idealize.ShloMosaic.LibWholeStore

end
-- ==== Proof.BitsSide.Layer2Body.lean ====
/-
  The second layer's region: sixteen grid points accumulate one block of `relu (x1 · W1ᵀ)`.

  The grid is 1 × 8 × 16, the last axis the block of the shared axis. At point `(0, j, k)` the body reads the block of
  256 columns `k` of `x1` (all 4096 rows) and of the 1024 rows `j` of `W1`, and adds their product to an accumulator
  that lives in a scratch buffer carried from point to point: at `k = 0` the accumulator is first set to zero, at
  `k = 15` the output block `(0, j)` is stored as the maximum of the accumulator with zero. At the other points the
  output block's buffer is not touched. So the invariant carries the scratch buffer at the running sum (`acc1`), and
  the output's contents matter only at the points that write the block back.

  Everything here is stated for any float instance and at a parameter `V`: the buffers' contents when the region is
  entered.
-/
import proofs.«170804_j68015102099870_2_alg».proof.Proof.Gen.Kernel.Launch
import proofs.«170804_j68015102099870_2_alg».proof.Proof.Gen.Kernel.Skeleton
import proofs.«170804_j68015102099870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«170804_j68015102099870_2_alg».proof.Proof.LibReadBack
import proofs.«170804_j68015102099870_2_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.LibReadBack Idealize.ShloMosaic.LibWholeStore

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The rectangles' offsets are zero on both axes. -/
theorem hz2' : (![0, 0] : Fin 2 → ℕ) = fun _ => 0 := by
  funext a; match a with | ⟨0, _⟩ => rfl | ⟨1, _⟩ => rfl

/-- "This is the first block of the shared axis": the body's first branch condition, from the grid coordinates. -/
abbrev cond1_0 (i : grid1.Coords) : Prop := (Scalar.cmpi .ne (Scalar.extui (Scalar.cmpi .eq (BitVec.ofNat 32 (i 2).val) 0#32)) 0#32) = 1#1
/-- It holds at the points whose position is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last block of the shared axis": the body's second branch condition. -/
abbrev cond1_1 (i : grid1.Coords) : Prop := k1_cond2 i = 1#1
/-- It holds at the points whose position is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-- The scratch operand: a whole scoped buffer of the kernel's own, passed beside the windows. -/
abbrev scM1 : Memref sig .tc .vmem S4096x1024 .f32 := Memref.whole cc1_scratch0

/-- The inputs are never idle; the output is idle exactly where the last-block condition fails, and is not written
    back there. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

set_option maxHeartbeats 1000000 in
/-- FIRST block of the shared axis (and not the last): the accumulator is set to zero, then the block's product is added.
    The output's buffer is handed back untouched. -/
theorem run1_first (c : Dev nD) (E : Set ℕ) (i : grid1.Coords) (hc0 : cond1_0 i) (hc1 : ¬cond1_1 i)
    (arg3 : Memref sig .tc .vmem S4096x256 .bf16) (harg3 : arg3.IsWhole) (arg4 : Memref sig .tc .vmem S1024x256 .f32) (harg4 : arg4.IsWhole)
    (arg5 : Memref sig .tc .vmem S4096x1024 .bf16) (harg5 : arg5.IsWhole) (arg6 : Memref sig .tc .vmem S4096x1024 .f32) (harg6 : arg6.IsWhole)
    (x0 : Vec F S4096x256 .bf16) (x1 : Vec F S1024x256 .f32) (xi : Vec F S4096x1024 .bf16) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 k1_pay1)) -∗ K ⟨⟩))
      ⊢ wp frame (wpE (defs₀ (F := F)) Variants.none c none) E (cc1__matmul_relu_acc_kernel i arg3 harg3 arg4 harg4 arg5 harg5 arg6 harg6) K := by
  simp only [cc1__matmul_relu_acc_kernel_eq_skeleton]; unfold cc1__matmul_relu_acc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2' _ _ _).trans ?_
  sl_unfold_run_names
  rw [View.readCov_unit_zero _ hz2', View.readAt_eq_ld, View.readAt_eq_ld,
    View.ld_unit_zero (S := S4096x256) hz2', View.ld_unit_zero (S := S1024x256) hz2']

set_option maxHeartbeats 1000000 in
/-- A MIDDLE block: the block's product is added to the accumulator as the point before left it. The output's buffer is
    handed back untouched. -/
theorem run1_mid (c : Dev nD) (E : Set ℕ) (i : grid1.Coords) (hc0 : ¬cond1_0 i) (hc1 : ¬cond1_1 i)
    (arg3 : Memref sig .tc .vmem S4096x256 .bf16) (harg3 : arg3.IsWhole) (arg4 : Memref sig .tc .vmem S1024x256 .f32) (harg4 : arg4.IsWhole)
    (arg5 : Memref sig .tc .vmem S4096x1024 .bf16) (harg5 : arg5.IsWhole) (arg6 : Memref sig .tc .vmem S4096x1024 .f32) (harg6 : arg6.IsWhole)
    (x0 : Vec F S4096x256 .bf16) (x1 : Vec F S1024x256 .f32) (xi : Vec F S4096x1024 .bf16) (a : Vec F S4096x1024 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare a
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 a)) -∗ K ⟨⟩))
      ⊢ wp frame (wpE (defs₀ (F := F)) Variants.none c none) E (cc1__matmul_relu_acc_kernel i arg3 harg3 arg4 harg4 arg5 harg5 arg6 harg6) K := by
  simp only [cc1__matmul_relu_acc_kernel_eq_skeleton]; unfold cc1__matmul_relu_acc_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2' _ _ _).trans ?_
  sl_unfold_run_names
  rw [View.readAt_eq_ld, View.readAt_eq_ld, View.readAt_eq_ld,
    View.ld_unit_zero (S := S4096x256) hz2', View.ld_unit_zero (S := S1024x256) hz2', View.ld_unit_zero (S := S4096x1024) hz2']

set_option maxHeartbeats 1000000 in
/-- The LAST block: the block's product is added to the accumulator, and the output block is stored as the maximum of
    the accumulator with zero. -/
theorem run1_last (c : Dev nD) (E : Set ℕ) (i : grid1.Coords) (hc0 : ¬cond1_0 i) (hc1 : cond1_1 i)
    (arg3 : Memref sig .tc .vmem S4096x256 .bf16) (harg3 : arg3.IsWhole) (arg4 : Memref sig .tc .vmem S1024x256 .f32) (harg4 : arg4.IsWhole)
    (arg5 : Memref sig .tc .vmem S4096x1024 .bf16) (harg5 : arg5.IsWhole) (arg6 : Memref sig .tc .vmem S4096x1024 .f32) (harg6 : arg6.IsWhole)
    (x0 : Vec F S4096x256 .bf16) (x1 : Vec F S1024x256 .f32) (a : Vec F S4096x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare a
        ∗ (iprop(owns (c : Thread nD τ) arg3 fullShare x0 ∗ owns (c : Thread nD τ) arg4 fullShare x1
            ∗ owns (c : Thread nD τ) arg5 fullShare (k1_pay3 (k1_pay2 x0 x1 a))
            ∗ owns (c : Thread nD τ) arg6 fullShare (k1_pay2 x0 x1 a)) -∗ K ⟨⟩))
      ⊢ wp frame (wpE (defs₀ (F := F)) Variants.none c none) E (cc1__matmul_relu_acc_kernel i arg3 harg3 arg4 harg4 arg5 harg5 arg6 harg6) K := by
  simp only [cc1__matmul_relu_acc_kernel_eq_skeleton]; unfold cc1__matmul_relu_acc_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_head_whole _ _ hz2' _ _ _).trans ?_
    sl_unfold_run_names
    rw [View.readCov_unit_zero _ hz2', View.readAt_eq_ld, View.readAt_eq_ld, View.readAt_eq_ld,
      View.ld_unit_zero (S := S4096x256) hz2', View.ld_unit_zero (S := S1024x256) hz2', View.ld_unit_zero (S := S4096x1024) hz2']
  iexists _; isplitr
  swap; · iexact H3
  ipureintro
  refine (read_writes_head_whole _ _ hz2' _ _ _).trans ?_
  sl_unfold_run_names
  rw [View.readAt_eq_ld, View.readAt_eq_ld, View.readAt_eq_ld,
    View.ld_unit_zero (S := S4096x256) hz2', View.ld_unit_zero (S := S1024x256) hz2', View.ld_unit_zero (S := S4096x1024) hz2']

section
variable (V : (c : Dev nD) → (b : Ref sig .tc) → Buf (Elt F) ((c : Thread nD τ).loc b))

/-- THE ACCUMULATION. What the scratch buffer holds after the body at position `n`: the product of the point's two
    blocks added to zero at a first block of the shared axis (position a multiple of 16), and otherwise to what the
    position before left. -/
def acc1 (c : Dev nD) : (n : ℕ) → n < cfg1.N → Vec F S4096x1024 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩)
      (if (n + 1) % 16 = 0 then k1_pay1 else acc1 c n (Nat.lt_of_succ_lt hn))

/-- At a first block the accumulator restarts from zero. -/
theorem acc1_first (c : Dev nD) (t : Fin cfg1.N) (h : t.val % 16 = 0) :
    acc1 V c t.val t.isLt = k1_pay2 (iblk1 V c 0 t) (iblk1 V c 1 t) k1_pay1 := by
  obtain ⟨n, hn⟩ := t
  cases n with
  | zero => rfl
  | succ n =>
    show k1_pay2 _ _ (if (n + 1) % 16 = 0 then _ else _) = _
    rw [if_pos h]

/-- At any other block it continues from the position before. -/
theorem acc1_next (c : Dev nD) (t : Fin cfg1.N) (h : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n =>
    show k1_pay2 _ _ (if (n + 1) % 16 = 0 then _ else _) = _
    rw [if_neg h]; rfl

/-- The core's scoped buffers other than the pipeline's staging buffers and the kernel's own scratch, unopened. -/
abbrev Rest1 (c : Dev nD) : sProp 𝕄 :=
  Pipeline.scopedRestBut (Ix := Unit) (Name := ℕ) (U := UR sig nD τ) (Lvl := ℕ) (Val := Elt F) spec1 c [cc1_scratch0]

/-- The plain invariant with the kernel's scratch taken out of the scoped rest and owned at some contents. -/
theorem PhiA1_eq (c : Dev nD) :
    (Pipeline.ΦA spec1 c : sProp 𝕄)
      = iprop(((∃ d, owns (c : Thread nD τ) scM1 fullShare d) ∗ Rest1 (F := F) c) ∗ (∃ r, prngReg c r)) := by
  unfold Pipeline.ΦA
  rw [Pipeline.scopedRest_split_of_list (win := spec1) (c := c) [cc1_scratch0] (by decide) (by decide)]
  simp only [Idealize.SL.BI.bigSepL_singleton, scM1, owns_whole]; try rfl

/-- The region's invariant before position `n`: the plain one before the first point; afterwards the scratch at the
    accumulator the point before left, beside the other scoped buffers and the generator register. -/
def Phi1 (c : Dev nD) : (n : ℕ) → n ≤ cfg1.N → sProp 𝕄
  | 0, _ => Pipeline.ΦA spec1 c
  | n + 1, hn => iprop((owns (c : Thread nD τ) scM1 fullShare (acc1 V c n hn) ∗ Rest1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ Rest1 (F := F) c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ Rest1 (F := F) c) ∗ (∃ r, prngReg c r)) := by
  cases n with
  | zero => exact absurd rfl hz
  | succ n => rfl

/-- The proof data of the second layer's pipeline on core `c`: the arrays as the region finds them; after the body at
    point `t` each input's buffer at its block and the output's at the maximum of the accumulator with zero (read only at
    the points that store it); the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Before any point the invariant yields the scratch at SOME contents (what a first block needs: it overwrites it). -/
theorem Phi1_open (c : Dev nD) (t : Fin cfg1.N) :
    (dat1 V c).Φ t.castSucc ⊢ iprop(((∃ d, owns (c : Thread nD τ) scM1 fullShare d) ∗ Rest1 (F := F) c) ∗ (∃ r, prngReg c r)) := by
  rw [Phi1_castSucc V c t]
  by_cases hz : t.val = 0
  · rw [Phi1_zero V c _ _ hz, PhiA1_eq]; try exact Idealize.SL.BI.Entails.refl _
  · rw [Phi1_pos V c _ _ hz]
    iintro ⟨⟨HS, HR⟩, Hg⟩
    isplitl [HS HR]
    · isplitl [HS]
      · iexists _; iexact HS
      iexact HR
    iexact Hg

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point. The inputs' buffers hold their blocks. By the point's position modulo 16 it is a first, a
    middle or a last block: a first block takes the scratch at anything and leaves it at the restarted accumulator; the
    others take it at what the point before left. The output is idle, and handed back as found, except at a last block,
    which stores it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [acc1_first V c t h0]
    iintro ⟨HΦ, Ho, ⟨%d0, H0⟩, ⟨%d1, H1⟩, ⟨%d2, H2⟩⟩
    ihave HΦ' := (Phi1_open V c t) $$ HΦ
    icases HΦ' with ⟨⟨HS, HR⟩, Hg⟩
    iapply (run1_first c Set.univ (grid1.coords t) ((hcond1_0 t).mpr h0) (fun h => h1 ((hcond1_1 t).mp h)) _ _ _ _ _ _ _ _
      (iblk1 V c 0 t) (iblk1 V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    rw [Phi1_castSucc V c t, Phi1_pos V c _ _ hz, acc1_next V c t h0]
    by_cases h1 : t.val % 16 = 15
    · rw [show (dat1 V c).leavesExact 2 t = owns (c : Thread nD τ) (st1_2 t) fullShare ((dat1 V c).after 2 t) from by
        unfold Dat.leavesExact; rw [liveAt1_2 t ((hcond1_1 t).mpr h1)], after1_2, acc1_next V c t h0]
      iintro ⟨⟨⟨HS, HR⟩, Hg⟩, Ho, ⟨%d0, H0⟩, ⟨%d1, H1⟩, ⟨%d2, H2⟩⟩
      iapply (run1_last c Set.univ (grid1.coords t) (fun h => h0 ((hcond1_0 t).mp h)) ((hcond1_1 t).mpr h1) _ _ _ _ _ _ _ _
        (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨⟨HS, HR⟩, Hg⟩, Ho, ⟨%d0, H0⟩, ⟨%d1, H1⟩, ⟨%d2, H2⟩⟩
      iapply (run1_mid c Set.univ (grid1.coords t) (fun h => h0 ((hcond1_0 t).mp h)) (fun h => h1 ((hcond1_1 t).mp h)) _ _ _ _ _ _ _ _
        (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the plain one back: the accumulator's value is forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HS, HR⟩, Hg⟩
  isplitl [HS HR]
  · isplitl [HS]
    · iexists _; iexact HS
    iexact HR
  iexact Hg

end

end Cert.Kernel.Hand

end
-- ==== Proof.BitsSide.Layer3Body.lean ====
/-
  The third layer's region: sixteen grid points accumulate one block of `relu (x2 · W2ᵀ)`.

  The grid is 2 × 8 × 16, the last axis the block of the shared axis. At point `(i, j, k)` the body reads the block of
  512 columns `k` of the 2048 rows `i` of `x2` and of the 1024 rows `j` of `W2`, and adds their product to an
  accumulator that lives in a scratch buffer carried from point to point: at `k = 0` the accumulator is first set to zero,
  at `k = 15` the output block `(i, j)` is stored as the maximum of the accumulator with zero. At the other points the
  output block's buffer is not touched. So the invariant carries the scratch buffer at the running sum (`acc2`), and the
  output's contents matter only at the points that write the block back.

  Everything here is stated for any float instance and at a parameter `V`: the buffers' contents when the region is
  entered.
-/
import proofs.«170804_j68015102099870_2_alg».proof.Proof.Gen.Kernel.Launch
import proofs.«170804_j68015102099870_2_alg».proof.Proof.Gen.Kernel.Skeleton
import proofs.«170804_j68015102099870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«170804_j68015102099870_2_alg».proof.Proof.LibReadBack
import proofs.«170804_j68015102099870_2_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.LibReadBack Idealize.ShloMosaic.LibWholeStore

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-- The rectangles' offsets are zero on both axes. -/
theorem hz2'' : (![0, 0] : Fin 2 → ℕ) = fun _ => 0 := by
  funext a; match a with | ⟨0, _⟩ => rfl | ⟨1, _⟩ => rfl

/-- "This is the first block of the shared axis": the body's first branch condition, from the grid coordinates. -/
abbrev cond2_0 (i : grid2.Coords) : Prop := (Scalar.cmpi .ne (Scalar.extui (Scalar.cmpi .eq (BitVec.ofNat 32 (i 2).val) 0#32)) 0#32) = 1#1
/-- It holds at the points whose position is a multiple of 16. -/
theorem hcond2_0 : ∀ t : Fin cfg2.N, cond2_0 (grid2.coords t) ↔ t.val % 16 = 0 :=
  (by decide +kernel : ∀ t : Fin grid2.N, cond2_0 (grid2.coords t) ↔ t.val % 16 = 0)
/-- "This is the last block of the shared axis": the body's second branch condition. -/
abbrev cond2_1 (i : grid2.Coords) : Prop := k2_cond2 i = 1#1
/-- It holds at the points whose position is 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-- The scratch operand: a whole scoped buffer of the kernel's own, passed beside the windows. -/
abbrev scM2 : Memref sig .tc .vmem S2048x1024 .f32 := Memref.whole cc2_scratch0

/-- The inputs are never idle; the output is idle exactly where the last-block condition fails, and is not written
    back there. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

set_option maxHeartbeats 1000000 in
/-- FIRST block of the shared axis (and not the last): the accumulator is set to zero, then the block's product is added.
    The output's buffer is handed back untouched. -/
theorem run2_first (c : Dev nD) (E : Set ℕ) (i : grid2.Coords) (hc0 : cond2_0 i) (hc1 : ¬cond2_1 i)
    (arg3 : Memref sig .tc .vmem S2048x512 .bf16) (harg3 : arg3.IsWhole) (arg4 : Memref sig .tc .vmem S1024x512 .f32) (harg4 : arg4.IsWhole)
    (arg5 : Memref sig .tc .vmem S2048x1024 .f32) (harg5 : arg5.IsWhole) (arg6 : Memref sig .tc .vmem S2048x1024 .f32) (harg6 : arg6.IsWhole)
    (x0 : Vec F S2048x512 .bf16) (x1 : Vec F S1024x512 .f32) (xi : Vec F S2048x1024 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k2_pay2 x0 x1 k2_pay1)) -∗ K ⟨⟩))
      ⊢ wp frame (wpE (defs₀ (F := F)) Variants.none c none) E (cc2__matmul_relu_acc_kernel i arg3 harg3 arg4 harg4 arg5 harg5 arg6 harg6) K := by
  simp only [cc2__matmul_relu_acc_kernel_eq_skeleton]; unfold cc2__matmul_relu_acc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2'' _ _ _).trans ?_
  sl_unfold_run_names
  rw [View.readCov_unit_zero _ hz2'', View.readAt_eq_ld, View.readAt_eq_ld,
    View.ld_unit_zero (S := S2048x512) hz2'', View.ld_unit_zero (S := S1024x512) hz2'']

set_option maxHeartbeats 1000000 in
/-- A MIDDLE block: the block's product is added to the accumulator as the point before left it. The output's buffer is
    handed back untouched. -/
theorem run2_mid (c : Dev nD) (E : Set ℕ) (i : grid2.Coords) (hc0 : ¬cond2_0 i) (hc1 : ¬cond2_1 i)
    (arg3 : Memref sig .tc .vmem S2048x512 .bf16) (harg3 : arg3.IsWhole) (arg4 : Memref sig .tc .vmem S1024x512 .f32) (harg4 : arg4.IsWhole)
    (arg5 : Memref sig .tc .vmem S2048x1024 .f32) (harg5 : arg5.IsWhole) (arg6 : Memref sig .tc .vmem S2048x1024 .f32) (harg6 : arg6.IsWhole)
    (x0 : Vec F S2048x512 .bf16) (x1 : Vec F S1024x512 .f32) (xi : Vec F S2048x1024 .f32) (a : Vec F S2048x1024 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare a
        ∗ (iprop(owns (c : Thread nD τ) arg3 fullShare x0 ∗ owns (c : Thread nD τ) arg4 fullShare x1 ∗ owns (c : Thread nD τ) arg5 fullShare xi
            ∗ owns (c : Thread nD τ) arg6 fullShare (k2_pay2 x0 x1 a)) -∗ K ⟨⟩))
      ⊢ wp frame (wpE (defs₀ (F := F)) Variants.none c none) E (cc2__matmul_relu_acc_kernel i arg3 harg3 arg4 harg4 arg5 harg5 arg6 harg6) K := by
  simp only [cc2__matmul_relu_acc_kernel_eq_skeleton]; unfold cc2__matmul_relu_acc_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2'' _ _ _).trans ?_
  sl_unfold_run_names
  rw [View.readAt_eq_ld, View.readAt_eq_ld, View.readAt_eq_ld,
    View.ld_unit_zero (S := S2048x512) hz2'', View.ld_unit_zero (S := S1024x512) hz2'', View.ld_unit_zero (S := S2048x1024) hz2'']

set_option maxHeartbeats 1000000 in
/-- The LAST block: the block's product is added to the accumulator, and the output block is stored as the maximum of
    the accumulator with zero. -/
theorem run2_last (c : Dev nD) (E : Set ℕ) (i : grid2.Coords) (hc0 : ¬cond2_0 i) (hc1 : cond2_1 i)
    (arg3 : Memref sig .tc .vmem S2048x512 .bf16) (harg3 : arg3.IsWhole) (arg4 : Memref sig .tc .vmem S1024x512 .f32) (harg4 : arg4.IsWhole)
    (arg5 : Memref sig .tc .vmem S2048x1024 .f32) (harg5 : arg5.IsWhole) (arg6 : Memref sig .tc .vmem S2048x1024 .f32) (harg6 : arg6.IsWhole)
    (x0 : Vec F S2048x512 .bf16) (x1 : Vec F S1024x512 .f32) (a : Vec F S2048x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare a
        ∗ (iprop(owns (c : Thread nD τ) arg3 fullShare x0 ∗ owns (c : Thread nD τ) arg4 fullShare x1
            ∗ owns (c : Thread nD τ) arg5 fullShare (k2_pay3 (k2_pay2 x0 x1 a))
            ∗ owns (c : Thread nD τ) arg6 fullShare (k2_pay2 x0 x1 a)) -∗ K ⟨⟩))
      ⊢ wp frame (wpE (defs₀ (F := F)) Variants.none c none) E (cc2__matmul_relu_acc_kernel i arg3 harg3 arg4 harg4 arg5 harg5 arg6 harg6) K := by
  simp only [cc2__matmul_relu_acc_kernel_eq_skeleton]; unfold cc2__matmul_relu_acc_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_head_whole _ _ hz2'' _ _ _).trans ?_
    sl_unfold_run_names
    rw [View.readCov_unit_zero _ hz2'', View.readAt_eq_ld, View.readAt_eq_ld, View.readAt_eq_ld,
      View.ld_unit_zero (S := S2048x512) hz2'', View.ld_unit_zero (S := S1024x512) hz2'', View.ld_unit_zero (S := S2048x1024) hz2'']
  iexists _; isplitr
  swap; · iexact H3
  ipureintro
  refine (read_writes_head_whole _ _ hz2'' _ _ _).trans ?_
  sl_unfold_run_names
  rw [View.readAt_eq_ld, View.readAt_eq_ld, View.readAt_eq_ld,
    View.ld_unit_zero (S := S2048x512) hz2'', View.ld_unit_zero (S := S1024x512) hz2'', View.ld_unit_zero (S := S2048x1024) hz2'']

section
variable (V : (c : Dev nD) → (b : Ref sig .tc) → Buf (Elt F) ((c : Thread nD τ).loc b))

/-- THE ACCUMULATION. What the scratch buffer holds after the body at position `n`: the product of the point's two
    blocks added to zero at a first block of the shared axis (position a multiple of 16), and otherwise to what the
    position before left. -/
def acc2 (c : Dev nD) : (n : ℕ) → n < cfg2.N → Vec F S2048x1024 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 16 = 0 then k2_pay1 else acc2 c n (Nat.lt_of_succ_lt hn))

/-- At a first block the accumulator restarts from zero. -/
theorem acc2_first (c : Dev nD) (t : Fin cfg2.N) (h : t.val % 16 = 0) :
    acc2 V c t.val t.isLt = k2_pay2 (iblk2 V c 0 t) (iblk2 V c 1 t) k2_pay1 := by
  obtain ⟨n, hn⟩ := t
  cases n with
  | zero => rfl
  | succ n =>
    show k2_pay2 _ _ (if (n + 1) % 16 = 0 then _ else _) = _
    rw [if_pos h]

/-- At any other block it continues from the position before. -/
theorem acc2_next (c : Dev nD) (t : Fin cfg2.N) (h : ¬t.val % 16 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n =>
    show k2_pay2 _ _ (if (n + 1) % 16 = 0 then _ else _) = _
    rw [if_neg h]; rfl

/-- The core's scoped buffers other than the pipeline's staging buffers and the kernel's own scratch, unopened. -/
abbrev Rest2 (c : Dev nD) : sProp 𝕄 :=
  Pipeline.scopedRestBut (Ix := Unit) (Name := ℕ) (U := UR sig nD τ) (Lvl := ℕ) (Val := Elt F) spec2 c [cc2_scratch0]

/-- The plain invariant with the kernel's scratch taken out of the scoped rest and owned at some contents. -/
theorem PhiA2_eq (c : Dev nD) :
    (Pipeline.ΦA spec2 c : sProp 𝕄)
      = iprop(((∃ d, owns (c : Thread nD τ) scM2 fullShare d) ∗ Rest2 (F := F) c) ∗ (∃ r, prngReg c r)) := by
  unfold Pipeline.ΦA
  rw [Pipeline.scopedRest_split_of_list (win := spec2) (c := c) [cc2_scratch0] (by decide) (by decide)]
  simp only [Idealize.SL.BI.bigSepL_singleton, scM2, owns_whole]; try rfl

/-- The region's invariant before position `n`: the plain one before the first point; afterwards the scratch at the
    accumulator the point before left, beside the other scoped buffers and the generator register. -/
def Phi2 (c : Dev nD) : (n : ℕ) → n ≤ cfg2.N → sProp 𝕄
  | 0, _ => Pipeline.ΦA spec2 c
  | n + 1, hn => iprop((owns (c : Thread nD τ) scM2 fullShare (acc2 V c n hn) ∗ Rest2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ Rest2 (F := F) c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ Rest2 (F := F) c) ∗ (∃ r, prngReg c r)) := by
  cases n with
  | zero => exact absurd rfl hz
  | succ n => rfl

/-- The proof data of the third layer's pipeline on core `c`: the arrays as the region finds them; after the body at
    point `t` each input's buffer at its block and the output's at the maximum of the accumulator with zero (read only at
    the points that store it); the invariant carrying the scratch; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- Before any point the invariant yields the scratch at SOME contents (what a first block needs: it overwrites it). -/
theorem Phi2_open (c : Dev nD) (t : Fin cfg2.N) :
    (dat2 V c).Φ t.castSucc ⊢ iprop(((∃ d, owns (c : Thread nD τ) scM2 fullShare d) ∗ Rest2 (F := F) c) ∗ (∃ r, prngReg c r)) := by
  rw [Phi2_castSucc V c t]
  by_cases hz : t.val = 0
  · rw [Phi2_zero V c _ _ hz, PhiA2_eq]; try exact Idealize.SL.BI.Entails.refl _
  · rw [Phi2_pos V c _ _ hz]
    iintro ⟨⟨HS, HR⟩, Hg⟩
    isplitl [HS HR]
    · isplitl [HS]
      · iexists _; iexact HS
      iexact HR
    iexact Hg

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in
/-- The body at any point. The inputs' buffers hold their blocks. By the point's position modulo 16 it is a first, a
    middle or a last block: a first block takes the scratch at anything and leaves it at the restarted accumulator; the
    others take it at what the point before left. The output is idle, and handed back as found, except at a last block,
    which stores it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 256 := lt_of_lt_of_eq t.isLt (show cfg2.N = 256 from N_2)
  by_cases h0 : t.val % 16 = 0
  · have h1 : ¬t.val % 16 = 15 := by omega
    rw [Dat.leavesExact_idle (dat2 V c) 2 t (idleAt2_2 t (fun h => h1 ((hcond2_1 t).mp h))) (noFlush2_2 t (fun h => h1 ((hcond2_1 t).mp h)))]
    rw [acc2_first V c t h0]
    iintro ⟨HΦ, Ho, ⟨%d0, H0⟩, ⟨%d1, H1⟩, ⟨%d2, H2⟩⟩
    ihave HΦ' := (Phi2_open V c t) $$ HΦ
    icases HΦ' with ⟨⟨HS, HR⟩, Hg⟩
    iapply (run2_first c Set.univ (grid2.coords t) ((hcond2_0 t).mpr h0) (fun h => h1 ((hcond2_1 t).mp h)) _ _ _ _ _ _ _ _
      (iblk2 V c 0 t) (iblk2 V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    rw [Phi2_castSucc V c t, Phi2_pos V c _ _ hz, acc2_next V c t h0]
    by_cases h1 : t.val % 16 = 15
    · rw [show (dat2 V c).leavesExact 2 t = owns (c : Thread nD τ) (st2_2 t) fullShare ((dat2 V c).after 2 t) from by
        unfold Dat.leavesExact; rw [liveAt2_2 t ((hcond2_1 t).mpr h1)], after2_2, acc2_next V c t h0]
      iintro ⟨⟨⟨HS, HR⟩, Hg⟩, Ho, ⟨%d0, H0⟩, ⟨%d1, H1⟩, ⟨%d2, H2⟩⟩
      iapply (run2_last c Set.univ (grid2.coords t) (fun h => h0 ((hcond2_0 t).mp h)) ((hcond2_1 t).mpr h1) _ _ _ _ _ _ _ _
        (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      iintro ⟨⟨⟨HS, HR⟩, Hg⟩, Ho, ⟨%d0, H0⟩, ⟨%d1, H1⟩, ⟨%d2, H2⟩⟩
      iapply (run2_mid c Set.univ (grid2.coords t) (fun h => h0 ((hcond2_0 t).mp h)) (fun h => h1 ((hcond2_1 t).mp h)) _ _ _ _ _ _ _ _
        (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the plain one back: the accumulator's value is forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 256 := N_2; omega), PhiA2_eq]
  iintro ⟨⟨HS, HR⟩, Hg⟩
  isplitl [HS HR]
  · isplitl [HS]
    · iexists _; iexact HS
    iexact HR
  iexact Hg

end

end Cert.Kernel.Hand

end
-- ==== Proof.BitsSide.Regions.lean ====
/-
  The whole program as four segments — one host operation (the bias reshaped to a row), then the three layers' regions —
  and its run.

  Between two segments every unscoped buffer of a core holds known contents: the launch memory, then the host
  operation's result added, then after each region that region's output array at what its write-backs leave and every
  other buffer as the region found it. Each region is entered from that state and left at the next: its arrays are
  split out of the unscoped buffers and put back at their exit contents; the generator register goes into the region's
  invariant and comes back; nothing is owed and the kernels have no semaphores of their own. The second and third regions'
  invariants also take the scratch accumulator in (at anything) and give it back (its value forgotten).

  The run's post reads EVERY unscoped buffer at the last contents, so that both "the arguments end as launched" and the
  value of the result array are consequences of it.
-/
import proofs.«170804_j68015102099870_2_alg».proof.Proof.BitsSide.Layer1Body
import proofs.«170804_j68015102099870_2_alg».proof.Proof.BitsSide.Layer2Body
import proofs.«170804_j68015102099870_2_alg».proof.Proof.BitsSide.Layer3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- The host operation as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The host operation allocates no buffer. -/
theorem hostOps0_fresh' : (hostOps0 : List (HloOp τ sig (Elt F))).Forall fun op => op.fresh = ∅ := by
  simp only [List.Forall]; repeat' constructor
/-- The last thread state without the dues: every unscoped buffer at the last contents, the generator register at some
    state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first layer's region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer's region: entered from every unscoped buffer at `W3`, left at `W4` (what is read at the end). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
/-- The program IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each core's unscoped buffers hold the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.BitsSide.Ends.lean ====
/-
  The ends of the run read back.

  Every argument array reaches the end as launched: the host operation writes only the reshaped bias row, and a region
  changes only its output array — an argument is either one of its input windows (whose array the pipeline leaves as it
  found it) or not among its arrays at all. The result array is what the third region's write-backs leave; the array the
  third region reads is what the second left, and so on back to the launch. So the frame claim's post follows from the
  run's, and the result is named as the third region's final array over the second's over the first's.
-/
import proofs.«170804_j68015102099870_2_alg».proof.Proof.BitsSide.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operation writes only the reshaped bias row: every other buffer is as launched. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact StableHlo.devRef_ne_of_ne hb))).trans rfl

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of_ne m ρ c main_arg0 (by decide)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := W1_of_ne m ρ c main_arg1 (by decide)
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_ne m ρ c main_arg2 (by decide)
/-- What the second region finds in its weight array. -/
theorem V2_main_arg3 (c : Dev nD) : V2 m ρ c main_arg3 = m ((c : Thread nD τ).loc main_arg3) :=
  (W2_of_ne m ρ c main_arg3 (by decide)).trans (W1_of_ne m ρ c main_arg3 (by decide))
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((dat1 (V2 m ρ) c).arrAt_in 1 rfl _).trans (A_eq1 (V2 m ρ) c 1))
    _ = m ((c : Thread nD τ).loc main_arg3) := V2_main_arg3 m ρ c
/-- What the third region finds in its weight array. -/
theorem V3_main_arg4 (c : Dev nD) : V3 m ρ c main_arg4 = m ((c : Thread nD τ).loc main_arg4) :=
  (W3_of_ne m ρ c main_arg4 (by decide)).trans ((W2_of_ne m ρ c main_arg4 (by decide)).trans (W1_of_ne m ρ c main_arg4 (by decide)))
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat2 (V3 m ρ) c).arrAt_in 1 rfl _).trans (A_eq2 (V3 m ρ) c 1))
    _ = m ((c : Thread nD τ).loc main_arg4) := V3_main_arg4 m ρ c

/-! ## The result, and what each region reads -/

/-- The result array is what the third region's write-backs leave. -/
theorem W4_main_v3 (c : Dev nD) : W4 m ρ c (Proc.devRef .tc main_v3) = (dat2 (V3 m ρ) c).arrAt 2 cfg2.N := W4_arr m ρ c 2
/-- The third region reads what the second region's write-backs left. -/
theorem V3_main_v2 (c : Dev nD) : V3 m ρ c main_v2 = (dat1 (V2 m ρ) c).arrAt 2 cfg1.N := W3_arr m ρ c 2
/-- The second region reads what the first region's write-backs left. -/
theorem V2_main_v1 (c : Dev nD) : V2 m ρ c main_v1 = (dat0 (V1 m ρ) c).arrAt 3 cfg0.N := W2_arr m ρ c 3
/-- The first region reads the two argument matrices as launched, -/
theorem V1_main_arg0 (c : Dev nD) : V1 m ρ c main_arg0 = m ((c : Thread nD τ).loc main_arg0) := W1_of_ne m ρ c main_arg0 (by decide)
theorem V1_main_arg1 (c : Dev nD) : V1 m ρ c main_arg1 = m ((c : Thread nD τ).loc main_arg1) := W1_of_ne m ρ c main_arg1 (by decide)

/-! ## The frame claim's post -/

/-- From any memory with zero counters every weakly fair execution of the program terminates, nothing faulting, with
    every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The same run with the result array named: the third region's final array. -/
theorem run_result : θ_run defs (onTc (τ := τ) (main (F := F))) ⟨m, fun _ => 0, ρ⟩ (fun r => ∀ c : Dev nD,
      r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.IdealSide.Layer1Body.lean ====
/-
  The first layer's region: one grid point computes one block of `relu (x · Wdᵀ + bd)`.

  The grid is 2 × 4. At point `(i, j)` the body reads a block of 2048 rows of `x` (row block `i`, all 1024 columns),
  a block of 1024 rows of `Wd` (row block `j`), the 1024 bias entries of column block `j`, and stores the
  2048 × 1024 block `(i, j)` of the result whole: the product of the two blocks over their shared minor axis, plus the
  bias row, maximum with zero. No buffer is carried from one point to the next, so the invariant is the plain one
  (the scoped rest and the generator register, untouched).

  Everything here is stated for any float instance and at a parameter `V`: the buffers' contents when the region is
  entered.
-/
import proofs.«170804_j68015102099870_2_alg».proof.Proof.Gen.KernelIdeal.Launch
import proofs.«170804_j68015102099870_2_alg».proof.Proof.Gen.KernelIdeal.Skeleton
import proofs.«170804_j68015102099870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the block was fetched at that
    point or kept from the one before (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The whole 2048 × 1024 block as a rectangle (the body's loads and its one store go through it). -/
abbrev rA0 : Rect S2048x1024 := Rect.unit (s := S2048x1024) ![0, 0] S2048x1024.size inb_S2048x1024_S2048x1024_0_0
abbrev rB0 : Rect S1024x1024 := Rect.unit (s := S1024x1024) ![0, 0] S1024x1024.size inb_S1024x1024_S1024x1024_0_0
abbrev rC0 : Rect S1x1024 := Rect.unit (s := S1x1024) ![0, 0] S1x1024.size inb_S1x1024_S1x1024_0_0

/-- The rectangles' offsets are zero on both axes. -/
theorem hz2 : (![0, 0] : Fin 2 → ℕ) = fun _ => 0 := by
  funext a; match a with | ⟨0, _⟩ => rfl | ⟨1, _⟩ => rfl

/-- The one store covers the output block. -/
theorem cover0 (p0 : Vec F S2048x1024 .bf16) (y : S2048x1024.Idx) :
    ∃ pc ∈ ([⟨rA0, p0⟩] : List (View.Piece (Elt F) S2048x1024 .bf16)), y ∈ pc.1.set :=
  View.cover_of_tiled [⟨rA0, p0⟩] S2048x1024.size (by rfl) y

set_option maxHeartbeats 1000000 in
/-- The body on whole staging buffers, the three inputs at contents `x0 x1 x2` and the output at anything, runs to the end
    with the inputs as they were and the output block at the payload of the three input blocks. -/
theorem sound_kernel0 (c : Dev nD) (E : Set ℕ) (i : grid0.Coords)
    (arg2 : Memref sig .tc .vmem S2048x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S2048x1024 .bf16) (harg5 : arg5.IsWhole)
    (x0 : Vec F S2048x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x1 x2)) -∗ K ⟨⟩))
      ⊢ wp frame (wpE (defs₀ (F := F)) Variants.none c none) E (cc0__matmul_bias_relu_kernel i arg2 harg2 arg3 harg3 arg4 harg4 arg5 harg5) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover0 _)).trans ?_
  rw [View.canon_unit_zero hz2]
  rw [View.readAt_eq_ld, View.readAt_eq_ld, View.readAt_eq_ld,
    View.ld_unit_zero (S := S2048x1024) hz2, View.ld_unit_zero (S := S1024x1024) hz2, View.ld_unit_zero (S := S1x1024) hz2]

section
variable (V : (c : Dev nD) → (b : Ref sig .tc) → Buf (Elt F) ((c : Thread nD τ).loc b))

/-- The proof data of the first layer's pipeline on core `c`: the arrays as the region finds them; after the body at
    point `t` each input's buffer at its block and the output's at the payload of the three input blocks; the plain
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealSide.Layer2Body.lean ====
/-
  The second layer's region: sixteen grid points accumulate one block of `relu (x1 · W1ᵀ)`.

  The grid is 1 × 8 × 16, the last axis the block of the shared axis. At point `(0, j, k)` the body reads the block of
  256 columns `k` of `x1` (all 4096 rows) and of the 1024 rows `j` of `W1`, and adds their product to an accumulator
  that lives in a scratch buffer carried from point to point: at `k = 0` the accumulator is first set to zero, at
  `k = 15` the output block `(0, j)` is stored as the maximum of the accumulator with zero. At the other points the
  output block's buffer is not touched. So the invariant carries the scratch buffer at the running sum (`acc1`), and
  the output's contents matter only at the points that write the block back.

  Everything here is stated for any float instance and at a parameter `V`: the buffers' contents when the region is
  entered.
-/
import proofs.«170804_j68015102099870_2_alg».proof.Proof.Gen.KernelIdeal.Launch
import proofs.«170804_j68015102099870_2_alg».proof.Proof.Gen.KernelIdeal.Skeleton
import proofs.«170804_j68015102099870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«170804_j68015102099870_2_alg».proof.Proof.LibReadBack
import proofs.«170804_j68015102099870_2_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.LibReadBack Idealize.ShloMosaic.LibWholeStore

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The rectangles' offsets are zero on both axes. -/
theorem hz2' : (![0, 0] : Fin 2 → ℕ) = fun _ => 0 := by
  funext a; match a with | ⟨0, _⟩ => rfl | ⟨1, _⟩ => rfl

/-- "This is the first block of the shared axis": the body's first branch condition, from the grid coordinates. -/
abbrev cond1_0 (i : grid1.Coords) : Prop := (Scalar.cmpi .ne (Scalar.extui (Scalar.cmpi .eq (BitVec.ofNat 32 (i 2).val) 0#32)) 0#32) = 1#1
/-- It holds at the points whose position is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last block of the shared axis": the body's second branch condition. -/
abbrev cond1_1 (i : grid1.Coords) : Prop := k1_cond2 i = 1#1
/-- It holds at the points whose position is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-- The scratch operand: a whole scoped buffer of the kernel's own, passed beside the windows. -/
abbrev scM1 : Memref sig .tc .vmem S4096x1024 .f32 := Memref.whole cc1_scratch0

/-- The inputs are never idle; the output is idle exactly where the last-block condition fails, and is not written
    back there. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

set_option maxHeartbeats 1000000 in
/-- FIRST block of the shared axis (and not the last): the accumulator is set to zero, then the block's product is added.
    The output's buffer is handed back untouched. -/
theorem run1_first (c : Dev nD) (E : Set ℕ) (i : grid1.Coords) (hc0 : cond1_0 i) (hc1 : ¬cond1_1 i)
    (arg3 : Memref sig .tc .vmem S4096x256 .bf16) (harg3 : arg3.IsWhole) (arg4 : Memref sig .tc .vmem S1024x256 .f32) (harg4 : arg4.IsWhole)
    (arg5 : Memref sig .tc .vmem S4096x1024 .bf16) (harg5 : arg5.IsWhole) (arg6 : Memref sig .tc .vmem S4096x1024 .f32) (harg6 : arg6.IsWhole)
    (x0 : Vec F S4096x256 .bf16) (x1 : Vec F S1024x256 .f32) (xi : Vec F S4096x1024 .bf16) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 k1_pay1)) -∗ K ⟨⟩))
      ⊢ wp frame (wpE (defs₀ (F := F)) Variants.none c none) E (cc1__matmul_relu_acc_kernel i arg3 harg3 arg4 harg4 arg5 harg5 arg6 harg6) K := by
  simp only [cc1__matmul_relu_acc_kernel_eq_skeleton]; unfold cc1__matmul_relu_acc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2' _ _ _).trans ?_
  sl_unfold_run_names
  rw [View.readCov_unit_zero _ hz2', View.readAt_eq_ld, View.readAt_eq_ld,
    View.ld_unit_zero (S := S4096x256) hz2', View.ld_unit_zero (S := S1024x256) hz2']

set_option maxHeartbeats 1000000 in
/-- A MIDDLE block: the block's product is added to the accumulator as the point before left it. The output's buffer is
    handed back untouched. -/
theorem run1_mid (c : Dev nD) (E : Set ℕ) (i : grid1.Coords) (hc0 : ¬cond1_0 i) (hc1 : ¬cond1_1 i)
    (arg3 : Memref sig .tc .vmem S4096x256 .bf16) (harg3 : arg3.IsWhole) (arg4 : Memref sig .tc .vmem S1024x256 .f32) (harg4 : arg4.IsWhole)
    (arg5 : Memref sig .tc .vmem S4096x1024 .bf16) (harg5 : arg5.IsWhole) (arg6 : Memref sig .tc .vmem S4096x1024 .f32) (harg6 : arg6.IsWhole)
    (x0 : Vec F S4096x256 .bf16) (x1 : Vec F S1024x256 .f32) (xi : Vec F S4096x1024 .bf16) (a : Vec F S4096x1024 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare a
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 a)) -∗ K ⟨⟩))
      ⊢ wp frame (wpE (defs₀ (F := F)) Variants.none c none) E (cc1__matmul_relu_acc_kernel i arg3 harg3 arg4 harg4 arg5 harg5 arg6 harg6) K := by
  simp only [cc1__matmul_relu_acc_kernel_eq_skeleton]; unfold cc1__matmul_relu_acc_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2' _ _ _).trans ?_
  sl_unfold_run_names
  rw [View.readAt_eq_ld, View.readAt_eq_ld, View.readAt_eq_ld,
    View.ld_unit_zero (S := S4096x256) hz2', View.ld_unit_zero (S := S1024x256) hz2', View.ld_unit_zero (S := S4096x1024) hz2']

set_option maxHeartbeats 1000000 in
/-- The LAST block: the block's product is added to the accumulator, and the output block is stored as the maximum of
    the accumulator with zero. -/
theorem run1_last (c : Dev nD) (E : Set ℕ) (i : grid1.Coords) (hc0 : ¬cond1_0 i) (hc1 : cond1_1 i)
    (arg3 : Memref sig .tc .vmem S4096x256 .bf16) (harg3 : arg3.IsWhole) (arg4 : Memref sig .tc .vmem S1024x256 .f32) (harg4 : arg4.IsWhole)
    (arg5 : Memref sig .tc .vmem S4096x1024 .bf16) (harg5 : arg5.IsWhole) (arg6 : Memref sig .tc .vmem S4096x1024 .f32) (harg6 : arg6.IsWhole)
    (x0 : Vec F S4096x256 .bf16) (x1 : Vec F S1024x256 .f32) (a : Vec F S4096x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare a
        ∗ (iprop(owns (c : Thread nD τ) arg3 fullShare x0 ∗ owns (c : Thread nD τ) arg4 fullShare x1
            ∗ owns (c : Thread nD τ) arg5 fullShare (k1_pay3 (k1_pay2 x0 x1 a))
            ∗ owns (c : Thread nD τ) arg6 fullShare (k1_pay2 x0 x1 a)) -∗ K ⟨⟩))
      ⊢ wp frame (wpE (defs₀ (F := F)) Variants.none c none) E (cc1__matmul_relu_acc_kernel i arg3 harg3 arg4 harg4 arg5 harg5 arg6 harg6) K := by
  simp only [cc1__matmul_relu_acc_kernel_eq_skeleton]; unfold cc1__matmul_relu_acc_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_head_whole _ _ hz2' _ _ _).trans ?_
    sl_unfold_run_names
    rw [View.readCov_unit_zero _ hz2', View.readAt_eq_ld, View.readAt_eq_ld, View.readAt_eq_ld,
      View.ld_unit_zero (S := S4096x256) hz2', View.ld_unit_zero (S := S1024x256) hz2', View.ld_unit_zero (S := S4096x1024) hz2']
  iexists _; isplitr
  swap; · iexact H3
  ipureintro
  refine (read_writes_head_whole _ _ hz2' _ _ _).trans ?_
  sl_unfold_run_names
  rw [View.readAt_eq_ld, View.readAt_eq_ld, View.readAt_eq_ld,
    View.ld_unit_zero (S := S4096x256) hz2', View.ld_unit_zero (S := S1024x256) hz2', View.ld_unit_zero (S := S4096x1024) hz2']

section
variable (V : (c : Dev nD) → (b : Ref sig .tc) → Buf (Elt F) ((c : Thread nD τ).loc b))

/-- THE ACCUMULATION. What the scratch buffer holds after the body at position `n`: the product of the point's two
    blocks added to zero at a first block of the shared axis (position a multiple of 16), and otherwise to what the
    position before left. -/
def acc1 (c : Dev nD) : (n : ℕ) → n < cfg1.N → Vec F S4096x1024 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩)
      (if (n + 1) % 16 = 0 then k1_pay1 else acc1 c n (Nat.lt_of_succ_lt hn))

/-- At a first block the accumulator restarts from zero. -/
theorem acc1_first (c : Dev nD) (t : Fin cfg1.N) (h : t.val % 16 = 0) :
    acc1 V c t.val t.isLt = k1_pay2 (iblk1 V c 0 t) (iblk1 V c 1 t) k1_pay1 := by
  obtain ⟨n, hn⟩ := t
  cases n with
  | zero => rfl
  | succ n =>
    show k1_pay2 _ _ (if (n + 1) % 16 = 0 then _ else _) = _
    rw [if_pos h]

/-- At any other block it continues from the position before. -/
theorem acc1_next (c : Dev nD) (t : Fin cfg1.N) (h : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n =>
    show k1_pay2 _ _ (if (n + 1) % 16 = 0 then _ else _) = _
    rw [if_neg h]; rfl

/-- The core's scoped buffers other than the pipeline's staging buffers and the kernel's own scratch, unopened. -/
abbrev Rest1 (c : Dev nD) : sProp 𝕄 :=
  Pipeline.scopedRestBut (Ix := Unit) (Name := ℕ) (U := UR sig nD τ) (Lvl := ℕ) (Val := Elt F) spec1 c [cc1_scratch0]

/-- The plain invariant with the kernel's scratch taken out of the scoped rest and owned at some contents. -/
theorem PhiA1_eq (c : Dev nD) :
    (Pipeline.ΦA spec1 c : sProp 𝕄)
      = iprop(((∃ d, owns (c : Thread nD τ) scM1 fullShare d) ∗ Rest1 (F := F) c) ∗ (∃ r, prngReg c r)) := by
  unfold Pipeline.ΦA
  rw [Pipeline.scopedRest_split_of_list (win := spec1) (c := c) [cc1_scratch0] (by decide) (by decide)]
  simp only [Idealize.SL.BI.bigSepL_singleton, scM1, owns_whole]; try rfl

/-- The region's invariant before position `n`: the plain one before the first point; afterwards the scratch at the
    accumulator the point before left, beside the other scoped buffers and the generator register. -/
def Phi1 (c : Dev nD) : (n : ℕ) → n ≤ cfg1.N → sProp 𝕄
  | 0, _ => Pipeline.ΦA spec1 c
  | n + 1, hn => iprop((owns (c : Thread nD τ) scM1 fullShare (acc1 V c n hn) ∗ Rest1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ Rest1 (F := F) c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ Rest1 (F := F) c) ∗ (∃ r, prngReg c r)) := by
  cases n with
  | zero => exact absurd rfl hz
  | succ n => rfl

/-- The proof data of the second layer's pipeline on core `c`: the arrays as the region finds them; after the body at
    point `t` each input's buffer at its block and the output's at the maximum of the accumulator with zero (read only at
    the points that store it); the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Before any point the invariant yields the scratch at SOME contents (what a first block needs: it overwrites it). -/
theorem Phi1_open (c : Dev nD) (t : Fin cfg1.N) :
    (dat1 V c).Φ t.castSucc ⊢ iprop(((∃ d, owns (c : Thread nD τ) scM1 fullShare d) ∗ Rest1 (F := F) c) ∗ (∃ r, prngReg c r)) := by
  rw [Phi1_castSucc V c t]
  by_cases hz : t.val = 0
  · rw [Phi1_zero V c _ _ hz, PhiA1_eq]; try exact Idealize.SL.BI.Entails.refl _
  · rw [Phi1_pos V c _ _ hz]
    iintro ⟨⟨HS, HR⟩, Hg⟩
    isplitl [HS HR]
    · isplitl [HS]
      · iexists _; iexact HS
      iexact HR
    iexact Hg

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point. The inputs' buffers hold their blocks. By the point's position modulo 16 it is a first, a
    middle or a last block: a first block takes the scratch at anything and leaves it at the restarted accumulator; the
    others take it at what the point before left. The output is idle, and handed back as found, except at a last block,
    which stores it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [acc1_first V c t h0]
    iintro ⟨HΦ, Ho, ⟨%d0, H0⟩, ⟨%d1, H1⟩, ⟨%d2, H2⟩⟩
    ihave HΦ' := (Phi1_open V c t) $$ HΦ
    icases HΦ' with ⟨⟨HS, HR⟩, Hg⟩
    iapply (run1_first c Set.univ (grid1.coords t) ((hcond1_0 t).mpr h0) (fun h => h1 ((hcond1_1 t).mp h)) _ _ _ _ _ _ _ _
      (iblk1 V c 0 t) (iblk1 V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    rw [Phi1_castSucc V c t, Phi1_pos V c _ _ hz, acc1_next V c t h0]
    by_cases h1 : t.val % 16 = 15
    · rw [show (dat1 V c).leavesExact 2 t = owns (c : Thread nD τ) (st1_2 t) fullShare ((dat1 V c).after 2 t) from by
        unfold Dat.leavesExact; rw [liveAt1_2 t ((hcond1_1 t).mpr h1)], after1_2, acc1_next V c t h0]
      iintro ⟨⟨⟨HS, HR⟩, Hg⟩, Ho, ⟨%d0, H0⟩, ⟨%d1, H1⟩, ⟨%d2, H2⟩⟩
      iapply (run1_last c Set.univ (grid1.coords t) (fun h => h0 ((hcond1_0 t).mp h)) ((hcond1_1 t).mpr h1) _ _ _ _ _ _ _ _
        (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨⟨HS, HR⟩, Hg⟩, Ho, ⟨%d0, H0⟩, ⟨%d1, H1⟩, ⟨%d2, H2⟩⟩
      iapply (run1_mid c Set.univ (grid1.coords t) (fun h => h0 ((hcond1_0 t).mp h)) (fun h => h1 ((hcond1_1 t).mp h)) _ _ _ _ _ _ _ _
        (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the plain one back: the accumulator's value is forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HS, HR⟩, Hg⟩
  isplitl [HS HR]
  · isplitl [HS]
    · iexists _; iexact HS
    iexact HR
  iexact Hg

end

end Cert.KernelIdeal.Hand

end
-- ==== Proof.IdealSide.Layer3Body.lean ====
/-
  The third layer's region: sixteen grid points accumulate one block of `relu (x2 · W2ᵀ)`.

  The grid is 2 × 8 × 16, the last axis the block of the shared axis. At point `(i, j, k)` the body reads the block of
  512 columns `k` of the 2048 rows `i` of `x2` and of the 1024 rows `j` of `W2`, and adds their product to an
  accumulator that lives in a scratch buffer carried from point to point: at `k = 0` the accumulator is first set to zero,
  at `k = 15` the output block `(i, j)` is stored as the maximum of the accumulator with zero. At the other points the
  output block's buffer is not touched. So the invariant carries the scratch buffer at the running sum (`acc2`), and the
  output's contents matter only at the points that write the block back.

  Everything here is stated for any float instance and at a parameter `V`: the buffers' contents when the region is
  entered.
-/
import proofs.«170804_j68015102099870_2_alg».proof.Proof.Gen.KernelIdeal.Launch
import proofs.«170804_j68015102099870_2_alg».proof.Proof.Gen.KernelIdeal.Skeleton
import proofs.«170804_j68015102099870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«170804_j68015102099870_2_alg».proof.Proof.LibReadBack
import proofs.«170804_j68015102099870_2_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.LibReadBack Idealize.ShloMosaic.LibWholeStore

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-- The rectangles' offsets are zero on both axes. -/
theorem hz2'' : (![0, 0] : Fin 2 → ℕ) = fun _ => 0 := by
  funext a; match a with | ⟨0, _⟩ => rfl | ⟨1, _⟩ => rfl

/-- "This is the first block of the shared axis": the body's first branch condition, from the grid coordinates. -/
abbrev cond2_0 (i : grid2.Coords) : Prop := (Scalar.cmpi .ne (Scalar.extui (Scalar.cmpi .eq (BitVec.ofNat 32 (i 2).val) 0#32)) 0#32) = 1#1
/-- It holds at the points whose position is a multiple of 16. -/
theorem hcond2_0 : ∀ t : Fin cfg2.N, cond2_0 (grid2.coords t) ↔ t.val % 16 = 0 :=
  (by decide +kernel : ∀ t : Fin grid2.N, cond2_0 (grid2.coords t) ↔ t.val % 16 = 0)
/-- "This is the last block of the shared axis": the body's second branch condition. -/
abbrev cond2_1 (i : grid2.Coords) : Prop := k2_cond2 i = 1#1
/-- It holds at the points whose position is 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-- The scratch operand: a whole scoped buffer of the kernel's own, passed beside the windows. -/
abbrev scM2 : Memref sig .tc .vmem S2048x1024 .f32 := Memref.whole cc2_scratch0

/-- The inputs are never idle; the output is idle exactly where the last-block condition fails, and is not written
    back there. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

set_option maxHeartbeats 1000000 in
/-- FIRST block of the shared axis (and not the last): the accumulator is set to zero, then the block's product is added.
    The output's buffer is handed back untouched. -/
theorem run2_first (c : Dev nD) (E : Set ℕ) (i : grid2.Coords) (hc0 : cond2_0 i) (hc1 : ¬cond2_1 i)
    (arg3 : Memref sig .tc .vmem S2048x512 .bf16) (harg3 : arg3.IsWhole) (arg4 : Memref sig .tc .vmem S1024x512 .f32) (harg4 : arg4.IsWhole)
    (arg5 : Memref sig .tc .vmem S2048x1024 .f32) (harg5 : arg5.IsWhole) (arg6 : Memref sig .tc .vmem S2048x1024 .f32) (harg6 : arg6.IsWhole)
    (x0 : Vec F S2048x512 .bf16) (x1 : Vec F S1024x512 .f32) (xi : Vec F S2048x1024 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k2_pay2 x0 x1 k2_pay1)) -∗ K ⟨⟩))
      ⊢ wp frame (wpE (defs₀ (F := F)) Variants.none c none) E (cc2__matmul_relu_acc_kernel i arg3 harg3 arg4 harg4 arg5 harg5 arg6 harg6) K := by
  simp only [cc2__matmul_relu_acc_kernel_eq_skeleton]; unfold cc2__matmul_relu_acc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2'' _ _ _).trans ?_
  sl_unfold_run_names
  rw [View.readCov_unit_zero _ hz2'', View.readAt_eq_ld, View.readAt_eq_ld,
    View.ld_unit_zero (S := S2048x512) hz2'', View.ld_unit_zero (S := S1024x512) hz2'']

set_option maxHeartbeats 1000000 in
/-- A MIDDLE block: the block's product is added to the accumulator as the point before left it. The output's buffer is
    handed back untouched. -/
theorem run2_mid (c : Dev nD) (E : Set ℕ) (i : grid2.Coords) (hc0 : ¬cond2_0 i) (hc1 : ¬cond2_1 i)
    (arg3 : Memref sig .tc .vmem S2048x512 .bf16) (harg3 : arg3.IsWhole) (arg4 : Memref sig .tc .vmem S1024x512 .f32) (harg4 : arg4.IsWhole)
    (arg5 : Memref sig .tc .vmem S2048x1024 .f32) (harg5 : arg5.IsWhole) (arg6 : Memref sig .tc .vmem S2048x1024 .f32) (harg6 : arg6.IsWhole)
    (x0 : Vec F S2048x512 .bf16) (x1 : Vec F S1024x512 .f32) (xi : Vec F S2048x1024 .f32) (a : Vec F S2048x1024 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare a
        ∗ (iprop(owns (c : Thread nD τ) arg3 fullShare x0 ∗ owns (c : Thread nD τ) arg4 fullShare x1 ∗ owns (c : Thread nD τ) arg5 fullShare xi
            ∗ owns (c : Thread nD τ) arg6 fullShare (k2_pay2 x0 x1 a)) -∗ K ⟨⟩))
      ⊢ wp frame (wpE (defs₀ (F := F)) Variants.none c none) E (cc2__matmul_relu_acc_kernel i arg3 harg3 arg4 harg4 arg5 harg5 arg6 harg6) K := by
  simp only [cc2__matmul_relu_acc_kernel_eq_skeleton]; unfold cc2__matmul_relu_acc_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_writes_head_whole _ _ hz2'' _ _ _).trans ?_
  sl_unfold_run_names
  rw [View.readAt_eq_ld, View.readAt_eq_ld, View.readAt_eq_ld,
    View.ld_unit_zero (S := S2048x512) hz2'', View.ld_unit_zero (S := S1024x512) hz2'', View.ld_unit_zero (S := S2048x1024) hz2'']

set_option maxHeartbeats 1000000 in
/-- The LAST block: the block's product is added to the accumulator, and the output block is stored as the maximum of
    the accumulator with zero. -/
theorem run2_last (c : Dev nD) (E : Set ℕ) (i : grid2.Coords) (hc0 : ¬cond2_0 i) (hc1 : cond2_1 i)
    (arg3 : Memref sig .tc .vmem S2048x512 .bf16) (harg3 : arg3.IsWhole) (arg4 : Memref sig .tc .vmem S1024x512 .f32) (harg4 : arg4.IsWhole)
    (arg5 : Memref sig .tc .vmem S2048x1024 .f32) (harg5 : arg5.IsWhole) (arg6 : Memref sig .tc .vmem S2048x1024 .f32) (harg6 : arg6.IsWhole)
    (x0 : Vec F S2048x512 .bf16) (x1 : Vec F S1024x512 .f32) (a : Vec F S2048x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare a
        ∗ (iprop(owns (c : Thread nD τ) arg3 fullShare x0 ∗ owns (c : Thread nD τ) arg4 fullShare x1
            ∗ owns (c : Thread nD τ) arg5 fullShare (k2_pay3 (k2_pay2 x0 x1 a))
            ∗ owns (c : Thread nD τ) arg6 fullShare (k2_pay2 x0 x1 a)) -∗ K ⟨⟩))
      ⊢ wp frame (wpE (defs₀ (F := F)) Variants.none c none) E (cc2__matmul_relu_acc_kernel i arg3 harg3 arg4 harg4 arg5 harg5 arg6 harg6) K := by
  simp only [cc2__matmul_relu_acc_kernel_eq_skeleton]; unfold cc2__matmul_relu_acc_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_head_whole _ _ hz2'' _ _ _).trans ?_
    sl_unfold_run_names
    rw [View.readCov_unit_zero _ hz2'', View.readAt_eq_ld, View.readAt_eq_ld, View.readAt_eq_ld,
      View.ld_unit_zero (S := S2048x512) hz2'', View.ld_unit_zero (S := S1024x512) hz2'', View.ld_unit_zero (S := S2048x1024) hz2'']
  iexists _; isplitr
  swap; · iexact H3
  ipureintro
  refine (read_writes_head_whole _ _ hz2'' _ _ _).trans ?_
  sl_unfold_run_names
  rw [View.readAt_eq_ld, View.readAt_eq_ld, View.readAt_eq_ld,
    View.ld_unit_zero (S := S2048x512) hz2'', View.ld_unit_zero (S := S1024x512) hz2'', View.ld_unit_zero (S := S2048x1024) hz2'']

section
variable (V : (c : Dev nD) → (b : Ref sig .tc) → Buf (Elt F) ((c : Thread nD τ).loc b))

/-- THE ACCUMULATION. What the scratch buffer holds after the body at position `n`: the product of the point's two
    blocks added to zero at a first block of the shared axis (position a multiple of 16), and otherwise to what the
    position before left. -/
def acc2 (c : Dev nD) : (n : ℕ) → n < cfg2.N → Vec F S2048x1024 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 16 = 0 then k2_pay1 else acc2 c n (Nat.lt_of_succ_lt hn))

/-- At a first block the accumulator restarts from zero. -/
theorem acc2_first (c : Dev nD) (t : Fin cfg2.N) (h : t.val % 16 = 0) :
    acc2 V c t.val t.isLt = k2_pay2 (iblk2 V c 0 t) (iblk2 V c 1 t) k2_pay1 := by
  obtain ⟨n, hn⟩ := t
  cases n with
  | zero => rfl
  | succ n =>
    show k2_pay2 _ _ (if (n + 1) % 16 = 0 then _ else _) = _
    rw [if_pos h]

/-- At any other block it continues from the position before. -/
theorem acc2_next (c : Dev nD) (t : Fin cfg2.N) (h : ¬t.val % 16 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n =>
    show k2_pay2 _ _ (if (n + 1) % 16 = 0 then _ else _) = _
    rw [if_neg h]; rfl

/-- The core's scoped buffers other than the pipeline's staging buffers and the kernel's own scratch, unopened. -/
abbrev Rest2 (c : Dev nD) : sProp 𝕄 :=
  Pipeline.scopedRestBut (Ix := Unit) (Name := ℕ) (U := UR sig nD τ) (Lvl := ℕ) (Val := Elt F) spec2 c [cc2_scratch0]

/-- The plain invariant with the kernel's scratch taken out of the scoped rest and owned at some contents. -/
theorem PhiA2_eq (c : Dev nD) :
    (Pipeline.ΦA spec2 c : sProp 𝕄)
      = iprop(((∃ d, owns (c : Thread nD τ) scM2 fullShare d) ∗ Rest2 (F := F) c) ∗ (∃ r, prngReg c r)) := by
  unfold Pipeline.ΦA
  rw [Pipeline.scopedRest_split_of_list (win := spec2) (c := c) [cc2_scratch0] (by decide) (by decide)]
  simp only [Idealize.SL.BI.bigSepL_singleton, scM2, owns_whole]; try rfl

/-- The region's invariant before position `n`: the plain one before the first point; afterwards the scratch at the
    accumulator the point before left, beside the other scoped buffers and the generator register. -/
def Phi2 (c : Dev nD) : (n : ℕ) → n ≤ cfg2.N → sProp 𝕄
  | 0, _ => Pipeline.ΦA spec2 c
  | n + 1, hn => iprop((owns (c : Thread nD τ) scM2 fullShare (acc2 V c n hn) ∗ Rest2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ Rest2 (F := F) c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ Rest2 (F := F) c) ∗ (∃ r, prngReg c r)) := by
  cases n with
  | zero => exact absurd rfl hz
  | succ n => rfl

/-- The proof data of the third layer's pipeline on core `c`: the arrays as the region finds them; after the body at
    point `t` each input's buffer at its block and the output's at the maximum of the accumulator with zero (read only at
    the points that store it); the invariant carrying the scratch; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- Before any point the invariant yields the scratch at SOME contents (what a first block needs: it overwrites it). -/
theorem Phi2_open (c : Dev nD) (t : Fin cfg2.N) :
    (dat2 V c).Φ t.castSucc ⊢ iprop(((∃ d, owns (c : Thread nD τ) scM2 fullShare d) ∗ Rest2 (F := F) c) ∗ (∃ r, prngReg c r)) := by
  rw [Phi2_castSucc V c t]
  by_cases hz : t.val = 0
  · rw [Phi2_zero V c _ _ hz, PhiA2_eq]; try exact Idealize.SL.BI.Entails.refl _
  · rw [Phi2_pos V c _ _ hz]
    iintro ⟨⟨HS, HR⟩, Hg⟩
    isplitl [HS HR]
    · isplitl [HS]
      · iexists _; iexact HS
      iexact HR
    iexact Hg

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in
/-- The body at any point. The inputs' buffers hold their blocks. By the point's position modulo 16 it is a first, a
    middle or a last block: a first block takes the scratch at anything and leaves it at the restarted accumulator; the
    others take it at what the point before left. The output is idle, and handed back as found, except at a last block,
    which stores it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 256 := lt_of_lt_of_eq t.isLt (show cfg2.N = 256 from N_2)
  by_cases h0 : t.val % 16 = 0
  · have h1 : ¬t.val % 16 = 15 := by omega
    rw [Dat.leavesExact_idle (dat2 V c) 2 t (idleAt2_2 t (fun h => h1 ((hcond2_1 t).mp h))) (noFlush2_2 t (fun h => h1 ((hcond2_1 t).mp h)))]
    rw [acc2_first V c t h0]
    iintro ⟨HΦ, Ho, ⟨%d0, H0⟩, ⟨%d1, H1⟩, ⟨%d2, H2⟩⟩
    ihave HΦ' := (Phi2_open V c t) $$ HΦ
    icases HΦ' with ⟨⟨HS, HR⟩, Hg⟩
    iapply (run2_first c Set.univ (grid2.coords t) ((hcond2_0 t).mpr h0) (fun h => h1 ((hcond2_1 t).mp h)) _ _ _ _ _ _ _ _
      (iblk2 V c 0 t) (iblk2 V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    rw [Phi2_castSucc V c t, Phi2_pos V c _ _ hz, acc2_next V c t h0]
    by_cases h1 : t.val % 16 = 15
    · rw [show (dat2 V c).leavesExact 2 t = owns (c : Thread nD τ) (st2_2 t) fullShare ((dat2 V c).after 2 t) from by
        unfold Dat.leavesExact; rw [liveAt2_2 t ((hcond2_1 t).mpr h1)], after2_2, acc2_next V c t h0]
      iintro ⟨⟨⟨HS, HR⟩, Hg⟩, Ho, ⟨%d0, H0⟩, ⟨%d1, H1⟩, ⟨%d2, H2⟩⟩
      iapply (run2_last c Set.univ (grid2.coords t) (fun h => h0 ((hcond2_0 t).mp h)) ((hcond2_1 t).mpr h1) _ _ _ _ _ _ _ _
        (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      iintro ⟨⟨⟨HS, HR⟩, Hg⟩, Ho, ⟨%d0, H0⟩, ⟨%d1, H1⟩, ⟨%d2, H2⟩⟩
      iapply (run2_mid c Set.univ (grid2.coords t) (fun h => h0 ((hcond2_0 t).mp h)) (fun h => h1 ((hcond2_1 t).mp h)) _ _ _ _ _ _ _ _
        (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the plain one back: the accumulator's value is forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 256 := N_2; omega), PhiA2_eq]
  iintro ⟨⟨HS, HR⟩, Hg⟩
  isplitl [HS HR]
  · isplitl [HS]
    · iexists _; iexact HS
    iexact HR
  iexact Hg

end

end Cert.KernelIdeal.Hand

end
-- ==== Proof.IdealSide.Regions.lean ====
/-
  The whole program as four segments — one host operation (the bias reshaped to a row), then the three layers' regions —
  and its run.

  Between two segments every unscoped buffer of a core holds known contents: the launch memory, then the host
  operation's result added, then after each region that region's output array at what its write-backs leave and every
  other buffer as the region found it. Each region is entered from that state and left at the next: its arrays are
  split out of the unscoped buffers and put back at their exit contents; the generator register goes into the region's
  invariant and comes back; nothing is owed and the kernels have no semaphores of their own. The second and third regions'
  invariants also take the scratch accumulator in (at anything) and give it back (its value forgotten).

  The run's post reads EVERY unscoped buffer at the last contents, so that both "the arguments end as launched" and the
  value of the result array are consequences of it.
-/
import proofs.«170804_j68015102099870_2_alg».proof.Proof.IdealSide.Layer1Body
import proofs.«170804_j68015102099870_2_alg».proof.Proof.IdealSide.Layer2Body
import proofs.«170804_j68015102099870_2_alg».proof.Proof.IdealSide.Layer3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- The host operation as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The host operation allocates no buffer. -/
theorem hostOps0_fresh' : (hostOps0 : List (HloOp τ sig (Elt F))).Forall fun op => op.fresh = ∅ := by
  simp only [List.Forall]; repeat' constructor
/-- The last thread state without the dues: every unscoped buffer at the last contents, the generator register at some
    state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first layer's region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer's region: entered from every unscoped buffer at `W3`, left at `W4` (what is read at the end). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
/-- The program IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each core's unscoped buffers hold the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.IdealSide.Ends.lean ====
/-
  The ends of the run read back.

  Every argument array reaches the end as launched: the host operation writes only the reshaped bias row, and a region
  changes only its output array — an argument is either one of its input windows (whose array the pipeline leaves as it
  found it) or not among its arrays at all. The result array is what the third region's write-backs leave; the array the
  third region reads is what the second left, and so on back to the launch. So the frame claim's post follows from the
  run's, and the result is named as the third region's final array over the second's over the first's.
-/
import proofs.«170804_j68015102099870_2_alg».proof.Proof.IdealSide.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operation writes only the reshaped bias row: every other buffer is as launched. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact StableHlo.devRef_ne_of_ne hb))).trans rfl

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of_ne m ρ c main_arg0 (by decide)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := W1_of_ne m ρ c main_arg1 (by decide)
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_ne m ρ c main_arg2 (by decide)
/-- What the second region finds in its weight array. -/
theorem V2_main_arg3 (c : Dev nD) : V2 m ρ c main_arg3 = m ((c : Thread nD τ).loc main_arg3) :=
  (W2_of_ne m ρ c main_arg3 (by decide)).trans (W1_of_ne m ρ c main_arg3 (by decide))
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((dat1 (V2 m ρ) c).arrAt_in 1 rfl _).trans (A_eq1 (V2 m ρ) c 1))
    _ = m ((c : Thread nD τ).loc main_arg3) := V2_main_arg3 m ρ c
/-- What the third region finds in its weight array. -/
theorem V3_main_arg4 (c : Dev nD) : V3 m ρ c main_arg4 = m ((c : Thread nD τ).loc main_arg4) :=
  (W3_of_ne m ρ c main_arg4 (by decide)).trans ((W2_of_ne m ρ c main_arg4 (by decide)).trans (W1_of_ne m ρ c main_arg4 (by decide)))
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat2 (V3 m ρ) c).arrAt_in 1 rfl _).trans (A_eq2 (V3 m ρ) c 1))
    _ = m ((c : Thread nD τ).loc main_arg4) := V3_main_arg4 m ρ c

/-! ## The result, and what each region reads -/

/-- The result array is what the third region's write-backs leave. -/
theorem W4_main_v3 (c : Dev nD) : W4 m ρ c (Proc.devRef .tc main_v3) = (dat2 (V3 m ρ) c).arrAt 2 cfg2.N := W4_arr m ρ c 2
/-- The third region reads what the second region's write-backs left. -/
theorem V3_main_v2 (c : Dev nD) : V3 m ρ c main_v2 = (dat1 (V2 m ρ) c).arrAt 2 cfg1.N := W3_arr m ρ c 2
/-- The second region reads what the first region's write-backs left. -/
theorem V2_main_v1 (c : Dev nD) : V2 m ρ c main_v1 = (dat0 (V1 m ρ) c).arrAt 3 cfg0.N := W2_arr m ρ c 3
/-- The first region reads the two argument matrices as launched, -/
theorem V1_main_arg0 (c : Dev nD) : V1 m ρ c main_arg0 = m ((c : Thread nD τ).loc main_arg0) := W1_of_ne m ρ c main_arg0 (by decide)
theorem V1_main_arg1 (c : Dev nD) : V1 m ρ c main_arg1 = m ((c : Thread nD τ).loc main_arg1) := W1_of_ne m ρ c main_arg1 (by decide)

/-! ## The frame claim's post -/

/-- From any memory with zero counters every weakly fair execution of the program terminates, nothing faulting, with
    every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The same run with the result array named: the third region's final array. -/
theorem run_result : θ_run defs (onTc (τ := τ) (main (F := F))) ⟨m, fun _ => 0, ρ⟩ (fun r => ∀ c : Dev nD,
      r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.Spec.lean ====
/-
  The three layers of the network as functions of the argument arrays, over the extended reals.

  Every layer is `relu (A · Bᵀ)`: entry `(p, q)` of the product is the sum over the shared (minor) axis of
  `A p k * B q k`; the first layer adds the bias entry `bd q` before the maximum with zero. At the ideal values a
  change of float format is the identity, so nothing else happens between the layers.

  The kernel computes the second and third products a block of the shared axis at a time, adding each block's
  partial sum to an accumulator that starts at zero; `dotRow_eq_blocks` says the whole sum is the sum of the
  blocks' partial sums. Only associativity and commutativity of `+` on the extended reals are used, so the law
  holds at infinite entries too.
-/
import Idealize.ShloMosaic.PureOps.Ideal
import Idealize.ShloMosaic.Lib.ValueIdx

noncomputable section

open scoped BigOperators

namespace Cert.Mlp

open Idealize.ShloMosaic Idealize.ShloMosaic.ValueIdx

/-- A rank-2 array of extended reals with `a` rows and `b` columns. -/
abbrev Mat (a b : ℕ) : Type := (⟨2, ![a, b]⟩ : Shape).Idx → EReal
/-- A rank-1 array of extended reals. -/
abbrev Row (a : ℕ) : Type := (⟨1, ![a]⟩ : Shape).Idx → EReal

/-- Entry `(p, q)` of `A · Bᵀ`: row `p` of `A` against row `q` of `B`, summed over the shared axis. -/
def dotRow {m n K : ℕ} (A : Mat m K) (B : Mat n K) (p : Fin m) (q : Fin n) : EReal :=
  ∑ k : Fin K, A (ix2 p k) * B (ix2 q k)

/-- The part of that sum over block `kb` of the shared axis (columns `kb * bk` to `kb * bk + bk - 1`); zero for a
    block past the end. -/
def dotBlock {m n : ℕ} (nb bk : ℕ) (A : Mat m (nb * bk)) (B : Mat n (nb * bk)) (p : Fin m) (q : Fin n) (kb : ℕ) : EReal :=
  if h : kb < nb then
    ∑ j : Fin bk, A (ix2 p ⟨kb * bk + j.val, by
        calc kb * bk + j.val < kb * bk + bk := Nat.add_lt_add_left j.isLt _
          _ = (kb + 1) * bk := (Nat.succ_mul kb bk).symm
          _ ≤ nb * bk := Nat.mul_le_mul_right bk h⟩)
      * B (ix2 q ⟨kb * bk + j.val, by
        calc kb * bk + j.val < kb * bk + bk := Nat.add_lt_add_left j.isLt _
          _ = (kb + 1) * bk := (Nat.succ_mul kb bk).symm
          _ ≤ nb * bk := Nat.mul_le_mul_right bk h⟩)
  else 0

/-- The first layer: `relu (x · Wdᵀ + bd)`, the bias broadcast down the rows. -/
def layer1 (x : Mat 4096 1024) (Wd : Mat 4096 1024) (bd : Row 4096) : Mat 4096 4096 :=
  fun i => max (dotRow x Wd (i 0) (i 1) + bd (ix1 (i 1))) 0

/-- The second layer: `relu (x1 · W1ᵀ)`. -/
def layer2 (x1 : Mat 4096 4096) (W1 : Mat 8192 4096) : Mat 4096 8192 :=
  fun i => max (dotRow x1 W1 (i 0) (i 1)) 0

/-- The third layer: `relu (x2 · W2ᵀ)`. -/
def layer3 (x2 : Mat 4096 8192) (W2 : Mat 8192 8192) : Mat 4096 8192 :=
  fun i => max (dotRow x2 W2 (i 0) (i 1)) 0

/-- The whole network. -/
def network (x : Mat 4096 1024) (Wd : Mat 4096 1024) (bd : Row 4096) (W1 : Mat 8192 4096) (W2 : Mat 8192 8192) : Mat 4096 8192 :=
  layer3 (layer2 (layer1 x Wd bd) W1) W2

end Cert.Mlp

end
-- ==== Proof.Payloads.lean ====
/-
  The kernels' stored values read at one entry, at the ideal values (the extended reals).

  A change of float format and a shape cast to the same shape are the identity there; the matrix unit's product into a
  zero accumulator, contracting both operands' minor axes, is at `(p, q)` the sum over the shared axis of
  `left (p, k) * right (q, k)`; the bias row is broadcast down the rows; and the zero word is the number zero, so the
  final maximum is the maximum with `0`.
-/
import proofs.«170804_j68015102099870_2_alg».proof.Proof.Spec
import proofs.«170804_j68015102099870_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Mlp.Pay

open Cert.KernelIdeal Cert.KernelIdeal.Gen Idealize.ShloMosaic Idealize.ShloMosaic.ValueIdx

/-! ### The contraction of `dot_S2048x1024_S1024x1024_S2048x1024_1_1_0_0_n_n`: both operands' minor axes, of length 1024 -/

theorem d0_lhs0 (i : S2048x1024.Idx) (c : dot_S2048x1024_S1024x1024_S2048x1024_1_1_0_0_n_n.contr.Idx) : (dot_S2048x1024_S1024x1024_S2048x1024_1_1_0_0_n_n.lhsIdx i c 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem d0_lhs1 (i : S2048x1024.Idx) (c : dot_S2048x1024_S1024x1024_S2048x1024_1_1_0_0_n_n.contr.Idx) : (dot_S2048x1024_S1024x1024_S2048x1024_1_1_0_0_n_n.lhsIdx i c 1).val = (c ⟨0, by decide⟩).val :=
  dot_S2048x1024_S1024x1024_S2048x1024_1_1_0_0_n_n.lhsIdx_val_of_single rfl i c
theorem d0_rhs0 (i : S2048x1024.Idx) (c : dot_S2048x1024_S1024x1024_S2048x1024_1_1_0_0_n_n.contr.Idx) : (dot_S2048x1024_S1024x1024_S2048x1024_1_1_0_0_n_n.rhsIdx i c 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem d0_rhs1 (i : S2048x1024.Idx) (c : dot_S2048x1024_S1024x1024_S2048x1024_1_1_0_0_n_n.contr.Idx) : (dot_S2048x1024_S1024x1024_S2048x1024_1_1_0_0_n_n.rhsIdx i c 1).val = (c ⟨0, by decide⟩).val :=
  dot_S2048x1024_S1024x1024_S2048x1024_1_1_0_0_n_n.rhsIdx_val_of_single rfl i c

/-- The sum over the contraction index, re-indexed by the one contracted coordinate: entry `(p, q)` pairs row `p` of the
    left operand with row `q` of the right one. -/
theorem d0_sum (l : S2048x1024.Idx → EReal) (r : S1024x1024.Idx → EReal) (p : Fin 2048) (q : Fin 1024) :
    ∑ c : dot_S2048x1024_S1024x1024_S2048x1024_1_1_0_0_n_n.contr.Idx, l (dot_S2048x1024_S1024x1024_S2048x1024_1_1_0_0_n_n.lhsIdx (ix2 p q) c) * r (dot_S2048x1024_S1024x1024_S2048x1024_1_1_0_0_n_n.rhsIdx (ix2 p q) c)
      = ∑ k : Fin 1024, l (ix2 p k) * r (ix2 q k) := by
  rw [← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact d0_lhs0 _ _
    | ⟨1, _⟩ => exact (d0_lhs1 _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact d0_rhs0 _ _
    | ⟨1, _⟩ => exact (d0_rhs1 _ _).trans hk)
  rw [el, er]

/-! ### The contraction of `dot_S4096x256_S1024x256_S4096x1024_1_1_0_0_n_n`: both operands' minor axes, of length 256 -/

theorem d1_lhs0 (i : S4096x1024.Idx) (c : dot_S4096x256_S1024x256_S4096x1024_1_1_0_0_n_n.contr.Idx) : (dot_S4096x256_S1024x256_S4096x1024_1_1_0_0_n_n.lhsIdx i c 0).val = (i 0).val := by
  unfold DotDims.lhsIdx
  rw [dif_neg (show ¬(0 : Fin S4096x256.rank) ∈ dot_S4096x256_S1024x256_S4096x1024_1_1_0_0_n_n.lhsBatch by decide), dif_pos (show (0 : Fin S4096x256.rank) ∈ dot_S4096x256_S1024x256_S4096x1024_1_1_0_0_n_n.lhsNonContracting by decide)]
  rfl
theorem d1_lhs1 (i : S4096x1024.Idx) (c : dot_S4096x256_S1024x256_S4096x1024_1_1_0_0_n_n.contr.Idx) : (dot_S4096x256_S1024x256_S4096x1024_1_1_0_0_n_n.lhsIdx i c 1).val = (c ⟨0, by decide⟩).val :=
  dot_S4096x256_S1024x256_S4096x1024_1_1_0_0_n_n.lhsIdx_val_of_single rfl i c
theorem d1_rhs0 (i : S4096x1024.Idx) (c : dot_S4096x256_S1024x256_S4096x1024_1_1_0_0_n_n.contr.Idx) : (dot_S4096x256_S1024x256_S4096x1024_1_1_0_0_n_n.rhsIdx i c 0).val = (i 1).val := by
  unfold DotDims.rhsIdx
  rw [dif_neg (show ¬(0 : Fin S1024x256.rank) ∈ dot_S4096x256_S1024x256_S4096x1024_1_1_0_0_n_n.rhsBatch by decide), dif_pos (show (0 : Fin S1024x256.rank) ∈ dot_S4096x256_S1024x256_S4096x1024_1_1_0_0_n_n.rhsNonContracting by decide)]
  rfl
theorem d1_rhs1 (i : S4096x1024.Idx) (c : dot_S4096x256_S1024x256_S4096x1024_1_1_0_0_n_n.contr.Idx) : (dot_S4096x256_S1024x256_S4096x1024_1_1_0_0_n_n.rhsIdx i c 1).val = (c ⟨0, by decide⟩).val :=
  dot_S4096x256_S1024x256_S4096x1024_1_1_0_0_n_n.rhsIdx_val_of_single rfl i c

/-- The sum over the contraction index, re-indexed by the one contracted coordinate: entry `(p, q)` pairs row `p` of the
    left operand with row `q` of the right one. -/
theorem d1_sum (l : S4096x256.Idx → EReal) (r : S1024x256.Idx → EReal) (p : Fin 4096) (q : Fin 1024) :
    ∑ c : dot_S4096x256_S1024x256_S4096x1024_1_1_0_0_n_n.contr.Idx, l (dot_S4096x256_S1024x256_S4096x1024_1_1_0_0_n_n.lhsIdx (ix2 p q) c) * r (dot_S4096x256_S1024x256_S4096x1024_1_1_0_0_n_n.rhsIdx (ix2 p q) c)
      = ∑ k : Fin 256, l (ix2 p k) * r (ix2 q k) := by
  rw [← Equiv.sum_comp (contrEquiv1 dot_S4096x256_S1024x256_S4096x1024_1_1_0_0_n_n 256 rfl rfl).symm]
  refine Finset.sum_congr rfl fun k _ => ?_
  have hk := contrEquiv1_symm_val dot_S4096x256_S1024x256_S4096x1024_1_1_0_0_n_n 256 rfl rfl k
  have el : dot_S4096x256_S1024x256_S4096x1024_1_1_0_0_n_n.lhsIdx (ix2 p q) ((contrEquiv1 dot_S4096x256_S1024x256_S4096x1024_1_1_0_0_n_n 256 rfl rfl).symm k) = ix2 p k := funext fun a => Fin.ext (by
    match a with
    | ⟨0, _⟩ => exact d1_lhs0 _ _
    | ⟨1, _⟩ => exact (d1_lhs1 _ _).trans hk)
  have er : dot_S4096x256_S1024x256_S4096x1024_1_1_0_0_n_n.rhsIdx (ix2 p q) ((contrEquiv1 dot_S4096x256_S1024x256_S4096x1024_1_1_0_0_n_n 256 rfl rfl).symm k) = ix2 q k := funext fun a => Fin.ext (by
    match a with
    | ⟨0, _⟩ => exact d1_rhs0 _ _
    | ⟨1, _⟩ => exact (d1_rhs1 _ _).trans hk)
  rw [el, er]

/-! ### The contraction of `dot_S2048x512_S1024x512_S2048x1024_1_1_0_0_n_n`: both operands' minor axes, of length 512 -/

theorem d2_lhs0 (i : S2048x1024.Idx) (c : dot_S2048x512_S1024x512_S2048x1024_1_1_0_0_n_n.contr.Idx) : (dot_S2048x512_S1024x512_S2048x1024_1_1_0_0_n_n.lhsIdx i c 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem d2_lhs1 (i : S2048x1024.Idx) (c : dot_S2048x512_S1024x512_S2048x1024_1_1_0_0_n_n.contr.Idx) : (dot_S2048x512_S1024x512_S2048x1024_1_1_0_0_n_n.lhsIdx i c 1).val = (c ⟨0, by decide⟩).val :=
  dot_S2048x512_S1024x512_S2048x1024_1_1_0_0_n_n.lhsIdx_val_of_single rfl i c
theorem d2_rhs0 (i : S2048x1024.Idx) (c : dot_S2048x512_S1024x512_S2048x1024_1_1_0_0_n_n.contr.Idx) : (dot_S2048x512_S1024x512_S2048x1024_1_1_0_0_n_n.rhsIdx i c 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem d2_rhs1 (i : S2048x1024.Idx) (c : dot_S2048x512_S1024x512_S2048x1024_1_1_0_0_n_n.contr.Idx) : (dot_S2048x512_S1024x512_S2048x1024_1_1_0_0_n_n.rhsIdx i c 1).val = (c ⟨0, by decide⟩).val :=
  dot_S2048x512_S1024x512_S2048x1024_1_1_0_0_n_n.rhsIdx_val_of_single rfl i c

/-- The sum over the contraction index, re-indexed by the one contracted coordinate: entry `(p, q)` pairs row `p` of the
    left operand with row `q` of the right one. -/
theorem d2_sum (l : S2048x512.Idx → EReal) (r : S1024x512.Idx → EReal) (p : Fin 2048) (q : Fin 1024) :
    ∑ c : dot_S2048x512_S1024x512_S2048x1024_1_1_0_0_n_n.contr.Idx, l (dot_S2048x512_S1024x512_S2048x1024_1_1_0_0_n_n.lhsIdx (ix2 p q) c) * r (dot_S2048x512_S1024x512_S2048x1024_1_1_0_0_n_n.rhsIdx (ix2 p q) c)
      = ∑ k : Fin 512, l (ix2 p k) * r (ix2 q k) := by
  rw [← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k := funext fun a => Fin.ext (by
    match a with
    | ⟨0, _⟩ => exact d2_lhs0 _ _
    | ⟨1, _⟩ => exact (d2_lhs1 _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k := funext fun a => Fin.ext (by
    match a with
    | ⟨0, _⟩ => exact d2_rhs0 _ _
    | ⟨1, _⟩ => exact (d2_rhs1 _ _).trans hk)
  rw [el, er]

/-! ### Kernel 0: product, bias, maximum with zero -/

/-- Entry `(p, q)` of the first kernel's stored block: row `p` of the left block against row `q` of the right one, plus
    the bias row's entry `q`, then the maximum with zero. -/
theorem k0_pay1_apply (v0 : Vec Ideal S2048x1024 .f32) (v2 : Vec Ideal S1024x1024 .f32) (v5 : Vec Ideal S1x1024 .f32)
    (p : Fin 2048) (q : Fin 1024) :
    k0_pay1 (F := Ideal) v0 v2 v5 (ix2 p q)
      = max ((∑ k : Fin 1024, v0 (ix2 p k) * v2 (ix2 q k)) + v5 (ix2 (0 : Fin 1) q)) 0 := by
  show max (FloatOps.matmul (F := Ideal) dot_S2048x1024_S1024x1024_S2048x1024_1_1_0_0_n_n none (truncf (F := Ideal) .bf16 v0 bitsLt_bf16_f32) (truncf (F := Ideal) .bf16 v2 bitsLt_bf16_f32)
        (constant (F := Ideal) S2048x1024 .f32 0x00000000#32) (ix2 p q)
      + broadcastTo S2048x1024 (shapeCast S1x1024 v5 shapeCasts_S1x1024_S1x1024) broadcasts_S1x1024_S2048x1024 (ix2 p q))
      (Ideal.ofBits .f32 0x00000000#32) = _
  rw [Ideal.matmul_constant_zero_apply, shapeCast_self, broadcastTo_1b_ab_apply, Ideal.ofBits_zero_f32, d0_sum]
  rfl

/-! ### Kernel 1: the accumulator's three writes -/

/-- The first block's reset writes zero everywhere. -/
theorem k1_pay1_apply (i : S4096x1024.Idx) : k1_pay1 (F := Ideal) i = 0 := by
  show shapeCast S4096x1024 (broadcast S4096x1024 (Scalar.ofBits (F := Ideal) .f32 0x00000000#32)) shapeCasts_S4096x1024_S4096x1024 i = 0
  rw [shapeCast_self]
  exact Ideal.ofBits_zero_f32

/-- A block's step adds, at `(p, q)`, the block's partial sum to the accumulator's entry. -/
theorem k1_pay2_apply (v3 : Vec Ideal S4096x256 .bf16) (v5 : Vec Ideal S1024x256 .f32) (v7 : Vec Ideal S4096x1024 .f32)
    (p : Fin 4096) (q : Fin 1024) :
    k1_pay2 (F := Ideal) v3 v5 v7 (ix2 p q) = v7 (ix2 p q) + ∑ j : Fin 256, v3 (ix2 p j) * v5 (ix2 q j) := by
  show shapeCast S4096x1024 (addf v7 (FloatOps.matmul (F := Ideal) dot_S4096x256_S1024x256_S4096x1024_1_1_0_0_n_n none (shapeCast S4096x256 v3 shapeCasts_S4096x256_S4096x256)
      (truncf (F := Ideal) .bf16 v5 bitsLt_bf16_f32) (constant (F := Ideal) S4096x1024 .f32 0x00000000#32))) shapeCasts_S4096x1024_S4096x1024 (ix2 p q) = _
  rw [shapeCast_self, shapeCast_self, addf_apply, Ideal.matmul_constant_zero_apply, d1_sum]
  rfl

/-- The last block's write-out is the maximum of the accumulator's entry and zero. -/
theorem k1_pay3_apply (v16 : Vec Ideal S4096x1024 .f32) (i : S4096x1024.Idx) : k1_pay3 (F := Ideal) v16 i = max (v16 i) 0 := by
  show max (v16 i) (Ideal.ofBits .f32 0x00000000#32) = _
  rw [Ideal.ofBits_zero_f32]

/-! ### Kernel 2: the accumulator's three writes -/

/-- The first block's reset writes zero everywhere. -/
theorem k2_pay1_apply (i : S2048x1024.Idx) : k2_pay1 (F := Ideal) i = 0 := by
  show shapeCast S2048x1024 (broadcast S2048x1024 (Scalar.ofBits (F := Ideal) .f32 0x00000000#32)) shapeCasts_S2048x1024_S2048x1024 i = 0
  rw [shapeCast_self]
  exact Ideal.ofBits_zero_f32

/-- A block's step adds, at `(p, q)`, the block's partial sum to the accumulator's entry. -/
theorem k2_pay2_apply (v3 : Vec Ideal S2048x512 .bf16) (v5 : Vec Ideal S1024x512 .f32) (v7 : Vec Ideal S2048x1024 .f32)
    (p : Fin 2048) (q : Fin 1024) :
    k2_pay2 (F := Ideal) v3 v5 v7 (ix2 p q) = v7 (ix2 p q) + ∑ j : Fin 512, v3 (ix2 p j) * v5 (ix2 q j) := by
  show shapeCast S2048x1024 (addf v7 (FloatOps.matmul (F := Ideal) dot_S2048x512_S1024x512_S2048x1024_1_1_0_0_n_n none (shapeCast S2048x512 v3 shapeCasts_S2048x512_S2048x512)
      (truncf (F := Ideal) .bf16 v5 bitsLt_bf16_f32) (constant (F := Ideal) S2048x1024 .f32 0x00000000#32))) shapeCasts_S2048x1024_S2048x1024 (ix2 p q) = _
  rw [shapeCast_self, shapeCast_self, addf_apply, Ideal.matmul_constant_zero_apply, d2_sum]
  rfl

/-- The last block's write-out is the maximum of the accumulator's entry and zero. -/
theorem k2_pay3_apply (v16 : Vec Ideal S2048x1024 .f32) (i : S2048x1024.Idx) : k2_pay3 (F := Ideal) v16 i = max (v16 i) 0 := by
  show max (v16 i) (Ideal.ofBits .f32 0x00000000#32) = _
  rw [Ideal.ofBits_zero_f32]

end Cert.Mlp.Pay

end
-- ==== Proof.IdealSide.Layer1Value.lean ====
/-
  What the first layer's region leaves in its output array: `relu (x · Wdᵀ + b)`, entry by entry, as a function of the
  arrays the region finds (the bias as the 1 × 4096 row the host reshaped it to).

  The grid is 2 × 4, point `t` at row block `t / 4` and column block `t % 4`. The point's block of `x` is rows
  `t / 4 · 2048 …`, all columns; of `Wd` rows `t % 4 · 1024 …`; of the bias row columns `t % 4 · 1024 …`; and it writes
  back block `(t / 4, t % 4)` of the output. So entry `(p, q)` of the block written at `t` is the entry
  `(t / 4 · 2048 + p, t % 4 · 1024 + q)` of the whole-array function, and the eight blocks tile the 4096 × 4096 array.
-/
import proofs.«170804_j68015102099870_2_alg».proof.Proof.IdealSide.Layer1Body
import proofs.«170804_j68015102099870_2_alg».proof.Proof.Spec
import proofs.«170804_j68015102099870_2_alg».proof.Proof.Payloads
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.Mlp

variable (V : (c : Dev nD) → (b : Ref sig .tc) → Buf (Elt Ideal) ((c : Thread nD τ).loc b))

/-- The first layer with the bias given as a one-row matrix. -/
def layer1Row (x : Mat 4096 1024) (Wd : Mat 4096 1024) (b : Mat 1 4096) : Mat 4096 4096 :=
  fun i => max (dotRow x Wd (i 0) (i 1) + b (ix2 (0 : Fin 1) (i 1))) 0

/-- The printed index maps over the grid: the row block is `t / 4`, the column block `t % 4`. -/
theorem idx_facts0 : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

theorem lt8 (t : Fin cfg0.N) : t.val < 8 := lt_of_lt_of_eq t.isLt (show cfg0.N = 8 from N_0)

/-- Row `p`, column `k` of the point's block of `x`. -/
theorem read0_0 (c : Dev nD) (t : Fin cfg0.N) (p : Fin 2048) (k : Fin 1024) :
    iblk0 V c 0 t (ix2 p k) = V c main_arg0 (ix2 (⟨t.val / 4 * 2048 + p.val, by have := lt8 t; have := p.isLt; omega⟩ : Fin 4096) k) := by
  obtain ⟨e0, e1, -⟩ := idx_facts0 t
  show V c main_arg0 (((cfg0.win 0).blk t).view.emb (ix2 p k)) = _
  refine congrArg (V c main_arg0) ?_
  funext a; apply Fin.ext
  match a with
  | ⟨0, _⟩ => show win0_0.index t (0 : Fin 2) * 2048 + 1 * p.val = t.val / 4 * 2048 + p.val; omega
  | ⟨1, _⟩ => show win0_0.index t (1 : Fin 2) * 1024 + 1 * k.val = k.val; omega

/-- Row `q`, column `k` of the point's block of `Wd`. -/
theorem read0_1 (c : Dev nD) (t : Fin cfg0.N) (q : Fin 1024) (k : Fin 1024) :
    iblk0 V c 1 t (ix2 q k) = V c main_arg1 (ix2 (⟨t.val % 4 * 1024 + q.val, by have := q.isLt; omega⟩ : Fin 4096) k) := by
  obtain ⟨-, -, e2, e3, -⟩ := idx_facts0 t
  show V c main_arg1 (((cfg0.win 1).blk t).view.emb (ix2 q k)) = _
  refine congrArg (V c main_arg1) ?_
  funext a; apply Fin.ext
  match a with
  | ⟨0, _⟩ => show win0_1.index t (0 : Fin 2) * 1024 + 1 * q.val = t.val % 4 * 1024 + q.val; omega
  | ⟨1, _⟩ => show win0_1.index t (1 : Fin 2) * 1024 + 1 * k.val = k.val; omega

/-- Column `q` of the point's block of the bias row. -/
theorem read0_2 (c : Dev nD) (t : Fin cfg0.N) (u : Fin 1) (q : Fin 1024) :
    iblk0 V c 2 t (ix2 u q) = V c main_v0 (ix2 (0 : Fin 1) (⟨t.val % 4 * 1024 + q.val, by have := q.isLt; omega⟩ : Fin 4096)) := by
  obtain ⟨-, -, -, -, e4, e5, -⟩ := idx_facts0 t
  show V c main_v0 (((cfg0.win 2).blk t).view.emb (ix2 u q)) = _
  refine congrArg (V c main_v0) ?_
  funext a; apply Fin.ext
  match a with
  | ⟨0, _⟩ => show win0_2.index t (0 : Fin 2) * 1 + 1 * u.val = 0; have := u.isLt; omega
  | ⟨1, _⟩ => show win0_2.index t (1 : Fin 2) * 1024 + 1 * q.val = t.val % 4 * 1024 + q.val; omega

/-- Where entry `(p, q)` of the block written back at `t` sits in the output array. -/
theorem emb0_3 (t : Fin cfg0.N) (p : Fin 2048) (q : Fin 1024) :
    ((cfg0.win 3).blk t).view.emb (ix2 p q)
      = ix2 (⟨t.val / 4 * 2048 + p.val, by have := lt8 t; have := p.isLt; omega⟩ : Fin 4096) (⟨t.val % 4 * 1024 + q.val, by have := q.isLt; omega⟩ : Fin 4096) := by
  obtain ⟨-, -, -, -, -, -, e6, e7⟩ := idx_facts0 t
  funext a; apply Fin.ext
  match a with
  | ⟨0, _⟩ => show win0_3.index t (0 : Fin 2) * 2048 + 1 * p.val = t.val / 4 * 2048 + p.val; omega
  | ⟨1, _⟩ => show win0_3.index t (1 : Fin 2) * 1024 + 1 * q.val = t.val % 4 * 1024 + q.val; omega

/-- WHAT POINT `t` WRITES BACK is block `t` of the layer's function of the arrays the region finds. -/
theorem flushed0_eq (c : Dev nD) (t : Fin cfg0.N) :
    (dat0 V c).flushed 3 t = ((cfg0.win 3).blk t).view.read (Elt Ideal) (layer1Row (V c main_arg0) (V c main_arg1) (V c main_v0)) := by
  show (cfg0.win 3).cut (grid0.coords t) ((dat0 V c).after 3 t) = _
  rw [after0_3]
  funext j
  obtain ⟨p, q, rfl⟩ : ∃ (p : Fin 2048) (q : Fin 1024), j = ix2 p q := ⟨j 0, j 1, eq_ix2 j⟩
  show k0_pay1 (F := Ideal) (iblk0 V c 0 t) (iblk0 V c 1 t) (iblk0 V c 2 t) (ix2 p q)
    = layer1Row (V c main_arg0) (V c main_arg1) (V c main_v0) (((cfg0.win 3).blk t).view.emb (ix2 p q))
  rw [emb0_3 t p q, Cert.Mlp.Pay.k0_pay1_apply]
  unfold layer1Row dotRow
  simp only [read0_0 V c t, read0_1 V c t, read0_2 V c t]

/-- An index of the output array is in point `t`'s block iff each coordinate is in the block's range on its axis. -/
theorem mem_blk0 (t : Fin cfg0.N) (i : S4096x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1).slice (win0_3.rect t)).set ↔ _
  rw [View.set_slice_whole, Rect.mem_set_unit]
  exact Iff.rfl

/-- The eight blocks tile the array: index `(r, s)` is in the block of point `r / 2048 · 4 + s / 1024`. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  let t : Fin cfg0.N := ⟨(i 0).val / 2048 * 4 + (i 1).val / 1024, by rw [show cfg0.N = 8 from N_0]; omega⟩
  have ht : t.val = (i 0).val / 2048 * 4 + (i 1).val / 1024 := rfl
  obtain ⟨-, -, -, -, -, -, e6, e7⟩ := idx_facts0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- THE ARRAY the first region leaves: the first layer of the arrays it found. -/
theorem layer1_value (c : Dev nD) :
    (dat0 V c).arrAt 3 cfg0.N = layer1Row (V c main_arg0) (V c main_arg1) (V c main_v0) :=
  (dat0 V c).arrAt_eq_of_cover 3 _ (fun t _ => flushed0_eq V c t) cover0

end Cert.KernelIdeal.HandValue

end
-- ==== Proof.BlockSum.lean ====
/-
  The sum over a shared axis of length `nb * bk` is the sum, over the `nb` blocks of `bk` consecutive columns, of the
  blocks' partial sums; and a left fold that starts at `0 + f 0` and adds `f 1`, `f 2`, … is the finite sum.

  Both statements use only that `+` on the extended reals is associative and commutative with unit `0`, so they hold
  at infinite entries as well.
-/
import proofs.«170804_j68015102099870_2_alg».proof.Proof.Spec

noncomputable section

open scoped BigOperators

namespace Cert.Mlp

open Idealize.ShloMosaic Idealize.ShloMosaic.ValueIdx

/-- The summand of `dotRow` at column `k`, extended by zero to every natural number. -/
def term {m n K : ℕ} (A : Mat m K) (B : Mat n K) (p : Fin m) (q : Fin n) (k : ℕ) : EReal :=
  if h : k < K then A (ix2 p ⟨k, h⟩) * B (ix2 q ⟨k, h⟩) else 0

/-- `dotRow` as a sum over an initial segment of the naturals. -/
theorem dotRow_eq_range {m n K : ℕ} (A : Mat m K) (B : Mat n K) (p : Fin m) (q : Fin n) :
    dotRow A B p q = ∑ k ∈ Finset.range K, term A B p q k := by
  unfold dotRow
  rw [Finset.sum_range]
  refine Finset.sum_congr rfl fun k _ => ?_
  unfold term
  rw [dif_pos k.isLt]

/-- A block's partial sum as a sum over an initial segment of the naturals, shifted to the block's first column. -/
theorem dotBlock_eq_range {m n : ℕ} (nb bk : ℕ) (A : Mat m (nb * bk)) (B : Mat n (nb * bk)) (p : Fin m) (q : Fin n)
    (kb : ℕ) (h : kb < nb) :
    dotBlock nb bk A B p q kb = ∑ j ∈ Finset.range bk, term A B p q (kb * bk + j) := by
  have hlt : ∀ j : Fin bk, kb * bk + j.val < nb * bk := fun j =>
    calc kb * bk + j.val < kb * bk + bk := Nat.add_lt_add_left j.isLt _
      _ = (kb + 1) * bk := (Nat.succ_mul kb bk).symm
      _ ≤ nb * bk := Nat.mul_le_mul_right bk h
  unfold dotBlock
  rw [dif_pos h, Finset.sum_range]
  refine Finset.sum_congr rfl fun j _ => ?_
  unfold term
  rw [dif_pos (hlt j)]

/-- A sum over `nb * bk` consecutive naturals, cut into `nb` runs of length `bk`. -/
theorem sum_range_mul (g : ℕ → EReal) (nb bk : ℕ) :
    ∑ k ∈ Finset.range (nb * bk), g k = ∑ kb ∈ Finset.range nb, ∑ j ∈ Finset.range bk, g (kb * bk + j) := by
  induction nb with
  | zero => simp
  | succ nb ih => rw [Nat.succ_mul, Finset.sum_range_add, ih, Finset.sum_range_succ]

/-- The whole sum over the shared axis is the sum of the blocks' partial sums. -/
theorem dotRow_eq_blocks {m n : ℕ} (nb bk : ℕ) (A : Mat m (nb * bk)) (B : Mat n (nb * bk)) (p : Fin m) (q : Fin n) :
    dotRow A B p q = ∑ kb ∈ Finset.range nb, dotBlock nb bk A B p q kb := by
  rw [dotRow_eq_range, sum_range_mul]
  refine Finset.sum_congr rfl fun kb hkb => ?_
  rw [dotBlock_eq_range nb bk A B p q kb (Finset.mem_range.mp hkb)]

/-- The accumulator after steps `0` to `k`: it starts from zero, and step `j` adds `f j`. -/
def accN (f : ℕ → EReal) : ℕ → EReal
  | 0 => 0 + f 0
  | k + 1 => accN f k + f (k + 1)

/-- The accumulator after step `k` holds the sum of the first `k + 1` terms. -/
theorem accN_eq_sum (f : ℕ → EReal) (k : ℕ) : accN f k = ∑ kb ∈ Finset.range (k + 1), f kb := by
  induction k with
  | zero => simp [accN]
  | succ k ih => rw [accN, ih, Finset.sum_range_succ _ (k + 1)]

end Cert.Mlp

end
-- ==== Proof.IdealSide.Layer2Value.lean ====
/-
  The second layer's output array after its region: `relu (x1 · W1ᵀ)`.

  The grid is 1 × 8 × 16; point `t` is `(0, j, k)` with `t = 16 j + k`. At that point the left block is rows
  `0` to `4095` and columns `256 k` to `256 k + 255` of `x1`, the right block is rows `1024 j` to
  `1024 j + 1023` and the same columns of `W1`, and the output block is rows `0` to `4095`, columns `1024 j` to
  `1024 j + 1023`. The accumulator after block `k` of a group holds, at `(p, q)`, the sum of the partial sums of blocks
  `0` to `k` of the shared axis; after the last block that is the whole sum over the shared axis, and the stored value
  is its maximum with zero. The output blocks of the last points of the groups tile the array.
-/
import proofs.«170804_j68015102099870_2_alg».proof.Proof.IdealSide.Layer2Body
import proofs.«170804_j68015102099870_2_alg».proof.Proof.Spec
import proofs.«170804_j68015102099870_2_alg».proof.Proof.BlockSum
import proofs.«170804_j68015102099870_2_alg».proof.Proof.Payloads
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.Mlp Cert.Mlp.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ### The grid's arithmetic, over plain natural numbers -/

/-- A point's row block stays inside the 4096 rows, -/
theorem rowIn1 (n p : ℕ) (hn : n < 128) (hp : p < 4096) : 0 * 4096 + p < 4096 := by omega
/-- and its column block inside the 8192 columns. -/
theorem colIn1 (n q : ℕ) (hn : n < 128) (hq : q < 1024) : n / 16 * 1024 + q < 8192 := by omega
/-- The entry `(a, b)` of the output lies in the block of the last point of its group: that point exists, is a last
    block, and its row and column blocks contain `a` and `b`. -/
theorem lastPoint1 (a b : ℕ) (ha : a < 4096) (hb : b < 8192) :
    b / 1024 * 16 + 15 < 128 ∧ (b / 1024 * 16 + 15) % 16 = 15
      ∧ 0 * 4096 ≤ a ∧ a < 0 * 4096 + 4096
      ∧ (b / 1024 * 16 + 15) / 16 * 1024 ≤ b ∧ b < (b / 1024 * 16 + 15) / 16 * 1024 + 1024 := by
  refine ⟨?_, ?_, ?_, ?_, ?_, ?_⟩ <;> omega

/-- The printed index maps at point `t`, decided over the grid. -/
theorem idx1 : ∀ t : Fin cfg1.N,
    win1_0.index t (0 : Fin 2) = 0 ∧ win1_0.index t (1 : Fin 2) = t.val % 16
    ∧ win1_1.index t (0 : Fin 2) = t.val / 16 ∧ win1_1.index t (1 : Fin 2) = t.val % 16
    ∧ win1_2.index t (0 : Fin 2) = 0 ∧ win1_2.index t (1 : Fin 2) = t.val / 16 :=
  (by decide +kernel : ∀ t : Fin grid1.N, _)

/-- Entry `(p, j)` of the left block at a point of row block `r` and block `k` of the shared axis is entry
    `(4096 r + p, 256 k + j)` of `x1`. -/
theorem iblk1_0_apply (c : Dev nD) (t : Fin cfg1.N) (r k : ℕ) (hr : 0 = r) (hk : t.val % 16 = k) (p : Fin 4096) (j : Fin 256)
    (h0 : r * 4096 + p.val < 4096) (h1 : k * 256 + j.val < 16 * 256) :
    iblk1 V c 0 t (ix2 p j) = (V c main_v1 : Mat 4096 (16 * 256)) (ix2 ⟨r * 4096 + p.val, h0⟩ ⟨k * 256 + j.val, h1⟩) := by
  obtain ⟨e0, e1, -⟩ := idx1 t
  show V c main_v1 (((cfg1.win 0).blk t).view.emb (ix2 p j)) = V c main_v1 _
  refine congrArg (V c main_v1) (funext fun a => Fin.ext ?_)
  match a with
  | ⟨0, _⟩ => show win1_0.index t (0 : Fin 2) * 4096 + 1 * p.val = r * 4096 + p.val; rw [e0, hr]; omega
  | ⟨1, _⟩ => show win1_0.index t (1 : Fin 2) * 256 + 1 * j.val = k * 256 + j.val; rw [e1, hk]; omega

/-- Entry `(q, j)` of the right block at a point of column block `g` and block `k` of the shared axis is entry
    `(1024 g + q, 256 k + j)` of `W1`. -/
theorem iblk1_1_apply (c : Dev nD) (t : Fin cfg1.N) (g k : ℕ) (hg : t.val / 16 = g) (hk : t.val % 16 = k) (q : Fin 1024) (j : Fin 256)
    (h0 : g * 1024 + q.val < 8192) (h1 : k * 256 + j.val < 16 * 256) :
    iblk1 V c 1 t (ix2 q j) = (V c main_arg3 : Mat 8192 (16 * 256)) (ix2 ⟨g * 1024 + q.val, h0⟩ ⟨k * 256 + j.val, h1⟩) := by
  obtain ⟨-, -, e2, e3, -⟩ := idx1 t
  show V c main_arg3 (((cfg1.win 1).blk t).view.emb (ix2 q j)) = V c main_arg3 _
  refine congrArg (V c main_arg3) (funext fun a => Fin.ext ?_)
  match a with
  | ⟨0, _⟩ => show win1_1.index t (0 : Fin 2) * 1024 + 1 * q.val = g * 1024 + q.val; rw [e2, hg]; omega
  | ⟨1, _⟩ => show win1_1.index t (1 : Fin 2) * 256 + 1 * j.val = k * 256 + j.val; rw [e3, hk]; omega

/-- Two blocks whose entries are those of block `k` of the shared axis of row `a` of `A` and of row `b` of `B` have, at
    `(p, q)`, that block's partial sum as the sum of their products. -/
theorem blockSum1 (A : Mat 4096 (16 * 256)) (B : Mat 8192 (16 * 256)) (a : Fin 4096) (b : Fin 8192) (k : ℕ) (hk16 : k < 16)
    (x0 : Vec Ideal S4096x256 .bf16) (x1 : Vec Ideal S1024x256 .f32) (p : Fin 4096) (q : Fin 1024)
    (hx0 : ∀ (j : Fin 256) (h : k * 256 + j.val < 16 * 256), x0 (ix2 p j) = A (ix2 a ⟨k * 256 + j.val, h⟩))
    (hx1 : ∀ (j : Fin 256) (h : k * 256 + j.val < 16 * 256), x1 (ix2 q j) = B (ix2 b ⟨k * 256 + j.val, h⟩)) :
    ∑ j : Fin 256, x0 (ix2 p j) * x1 (ix2 q j) = dotBlock 16 256 A B a b k := by
  unfold dotBlock
  rw [dif_pos hk16]
  refine Finset.sum_congr rfl fun j _ => ?_
  have hj : k * 256 + j.val < 16 * 256 := by have := j.isLt; omega
  rw [hx0 j hj, hx1 j hj] <;> rfl

/-- One more step of the accumulator, and its start. -/
theorem accN_step1 (f : ℕ → EReal) (k : ℕ) : accN f (k + 1) = accN f k + f (k + 1) := rfl
theorem accN_start1 (f : ℕ → EReal) : accN f 0 = 0 + f 0 := rfl

/-- THE ACCUMULATOR, CLOSED: after block `k` of a group the scratch holds at `(p, q)` the sum of the partial sums of
    blocks `0` to `k`, added in that order to zero. By induction on `k`: block `0` restarts from zero, a later block
    continues from the position before, which lies in the same group. -/
theorem acc1_apply (c : Dev nD) (r g : ℕ) (p : Fin 4096) (q : Fin 1024) (h0 : r * 4096 + p.val < 4096) (h1 : g * 1024 + q.val < 8192) :
    ∀ (k : ℕ), k < 16 → ∀ (n : ℕ) (hn : n < cfg1.N), n % 16 = k → 0 = r → n / 16 = g →
      acc1 V c n hn (ix2 p q)
        = accN (fun kb => dotBlock 16 256 (V c main_v1 : Mat 4096 (16 * 256)) (V c main_arg3 : Mat 8192 (16 * 256)) ⟨r * 4096 + p.val, h0⟩ ⟨g * 1024 + q.val, h1⟩ kb) k := by
  intro k
  induction k with
  | zero =>
    intro hk n hn hnk hr hg
    refine (congrFun (acc1_first V c ⟨n, hn⟩ hnk) (ix2 p q)).trans ?_
    refine (k1_pay2_apply (iblk1 V c 0 ⟨n, hn⟩) (iblk1 V c 1 ⟨n, hn⟩) (k1_pay1 (F := Ideal)) p q).trans ?_
    rw [k1_pay1_apply, accN_start1]
    exact congrArg (fun s : EReal => 0 + s) (blockSum1 (V c main_v1 : Mat 4096 (16 * 256)) (V c main_arg3 : Mat 8192 (16 * 256)) ⟨r * 4096 + p.val, h0⟩ ⟨g * 1024 + q.val, h1⟩ 0 hk
      (iblk1 V c 0 ⟨n, hn⟩) (iblk1 V c 1 ⟨n, hn⟩) p q
      (fun j h => iblk1_0_apply V c ⟨n, hn⟩ r 0 hr hnk p j h0 h) (fun j h => iblk1_1_apply V c ⟨n, hn⟩ g 0 hg hnk q j h1 h))
  | succ k ih =>
    intro hk n hn hnk hr hg
    have hne : ¬n % 16 = 0 := by omega
    have hn' : n - 1 < cfg1.N := Nat.lt_of_le_of_lt (Nat.sub_le n 1) hn
    refine (congrFun (acc1_next V c ⟨n, hn⟩ hne) (ix2 p q)).trans ?_
    refine (k1_pay2_apply (iblk1 V c 0 ⟨n, hn⟩) (iblk1 V c 1 ⟨n, hn⟩) (acc1 V c (n - 1) hn') p q).trans ?_
    rw [ih (by omega) (n - 1) hn' (by omega) (by omega) (by omega), accN_step1]
    exact congrArg (fun s : EReal => accN (fun kb => dotBlock 16 256 (V c main_v1 : Mat 4096 (16 * 256)) (V c main_arg3 : Mat 8192 (16 * 256)) ⟨r * 4096 + p.val, h0⟩ ⟨g * 1024 + q.val, h1⟩ kb) k + s)
      (blockSum1 (V c main_v1 : Mat 4096 (16 * 256)) (V c main_arg3 : Mat 8192 (16 * 256)) ⟨r * 4096 + p.val, h0⟩ ⟨g * 1024 + q.val, h1⟩ (k + 1) hk
        (iblk1 V c 0 ⟨n, hn⟩) (iblk1 V c 1 ⟨n, hn⟩) p q
        (fun j h => iblk1_0_apply V c ⟨n, hn⟩ r (k + 1) hr hnk p j h0 h) (fun j h => iblk1_1_apply V c ⟨n, hn⟩ g (k + 1) hg hnk q j h1 h))

/-- WHAT A LAST BLOCK STORES at block entry `(p, q)` is the layer's entry at row `4096 r + p`, column `1024 g + q`: the
    accumulator holds the sum of all sixteen partial sums, which is the whole sum over the shared axis. -/
theorem stored1 (c : Dev nD) (n : ℕ) (hn : n < cfg1.N) (hnk : n % 16 = 15) (r g : ℕ) (hr : 0 = r) (hg : n / 16 = g)
    (p : Fin 4096) (q : Fin 1024) (h0 : r * 4096 + p.val < 4096) (h1 : g * 1024 + q.val < 8192) :
    k1_pay3 (F := Ideal) (acc1 V c n hn) (ix2 p q)
      = layer2 (V c main_v1) (V c main_arg3) (ix2 (⟨r * 4096 + p.val, h0⟩ : Fin 4096) (⟨g * 1024 + q.val, h1⟩ : Fin 8192)) := by
  rw [k1_pay3_apply, acc1_apply V c r g p q h0 h1 15 (by decide) n hn hnk hr hg, accN_eq_sum]
  exact congrArg (fun s : EReal => max s 0) (dotRow_eq_blocks 16 256 (V c main_v1 : Mat 4096 (16 * 256)) (V c main_arg3 : Mat 8192 (16 * 256)) _ _).symm

/-- WHAT A LAST BLOCK'S POINT WRITES BACK is its block of the layer: the output block at `t` is rows
    `4096 r` onwards and columns `1024 g` onwards, `r` and `g` the point's row and column block. -/
theorem flushed1_eq (c : Dev nD) (t : Fin cfg1.N) (ht : t.val % 16 = 15) :
    (dat1 (F := Ideal) V c).flushed 2 t = ((cfg1.win 2).blk t).view.read (Elt Ideal) (layer2 (V c main_v1) (V c main_arg3)) := by
  obtain ⟨-, -, -, -, e4, e5⟩ := idx1 t
  have hN : t.val < 128 := lt_of_lt_of_eq t.isLt (show cfg1.N = 128 from N_1)
  show (cfg1.win 2).cut (grid1.coords t) ((dat1 (F := Ideal) V c).after 2 t) = _
  rw [after1_2]
  refine funext fun (y : S4096x1024.Idx) => ?_
  obtain ⟨p, q, rfl⟩ : ∃ (p : Fin 4096) (q : Fin 1024), y = ix2 p q := ⟨y 0, y 1, eq_ix2 y⟩
  have h0 : 0 * 4096 + p.val < 4096 := rowIn1 t.val p.val hN p.isLt
  have h1 : t.val / 16 * 1024 + q.val < 8192 := colIn1 t.val q.val hN q.isLt
  have ex : (cfg1.win 2).xinj (grid1.coords t) (ix2 p q) = ix2 p q := funext fun a => by
    match a with | ⟨0, _⟩ => rfl | ⟨1, _⟩ => rfl
  have ee : ((cfg1.win 2).blk t).view.emb (ix2 p q)
      = ix2 (⟨0 * 4096 + p.val, h0⟩ : Fin 4096) (⟨t.val / 16 * 1024 + q.val, h1⟩ : Fin 8192) := funext fun a => Fin.ext (by
    match a with
    | ⟨0, _⟩ => show win1_2.index t (0 : Fin 2) * 4096 + 1 * p.val = 0 * 4096 + p.val; rw [e4, Nat.one_mul]
    | ⟨1, _⟩ => show win1_2.index t (1 : Fin 2) * 1024 + 1 * q.val = t.val / 16 * 1024 + q.val; rw [e5, Nat.one_mul])
  show k1_pay3 (F := Ideal) (acc1 V c t.val t.isLt) ((cfg1.win 2).xinj (grid1.coords t) (ix2 p q))
    = layer2 (V c main_v1) (V c main_arg3) (((cfg1.win 2).blk t).view.emb (ix2 p q))
  rw [ex, ee]
  exact stored1 V c t.val t.isLt ht (0) (t.val / 16) rfl rfl p q h0 h1

/-- Every entry of the output array lies in the block of the last point of its group. -/
theorem cover1 (i : S4096x8192.Idx) :
    ∃ t : Fin cfg1.N, (cfg1.win 2).flush t = true ∧ i ∈ ((cfg1.win 2).blk t).view.set := by
  obtain ⟨l1, l2, l3, l4, l5, l6⟩ := lastPoint1 (i 0).val (i 1).val (i 0).isLt (i 1).isLt
  have hN : cfg1.N = 128 := N_1
  obtain ⟨t, htv⟩ : ∃ t : Fin cfg1.N, t.val = (i 1).val / 1024 * 16 + 15 := ⟨⟨(i 1).val / 1024 * 16 + 15, by rw [hN]; exact l1⟩, rfl⟩
  obtain ⟨-, -, -, -, e4, e5⟩ := idx1 t
  refine ⟨t, (flush1_2 t).mpr (by rw [htv]; exact l2), ?_⟩
  show i ∈ ((View.whole main_v2).slice (win1_2.rect t)).set
  rw [View.set_slice_whole, Rect.mem_set_unit]
  intro a
  match a with
  | ⟨0, _⟩ =>
    show win1_2.index t (0 : Fin 2) * 4096 ≤ (i 0).val ∧ (i 0).val < win1_2.index t (0 : Fin 2) * 4096 + 4096
    rw [e4]; exact ⟨l3, l4⟩
  | ⟨1, _⟩ =>
    show win1_2.index t (1 : Fin 2) * 1024 ≤ (i 1).val ∧ (i 1).val < win1_2.index t (1 : Fin 2) * 1024 + 1024
    rw [e5, htv]; exact ⟨l5, l6⟩

/-- THE ARRAY after the region is the layer of the arrays the region found. -/
theorem layer2_value (c : Dev nD) :
    (dat1 (F := Ideal) V c).arrAt 2 cfg1.N = Cert.Mlp.layer2 (V c main_v1) (V c main_arg3) :=
  (dat1 (F := Ideal) V c).arrAt_eq_of_cover 2 (Cert.Mlp.layer2 (V c main_v1) (V c main_arg3))
    (fun t hf => flushed1_eq V c t ((flush1_2 t).mp hf)) cover1

end Cert.KernelIdeal.HandValue

end
-- ==== Proof.IdealSide.Layer3Value.lean ====
/-
  What the third layer's region leaves in its output array: `relu (A · Bᵀ)` of the two arrays it finds, entry by
  entry.

  The grid is 2 × 8 × 16: position `t` is in group `g = t / 16` (row block `g / 8` of 2048 rows, column block `g % 8` of 1024 columns) at block `k = t % 16` of the shared axis. The sixteen positions `g · 16 + k`, `k = 0 … 15`, of a group `g` all work on one output block; position `k`
  reads block `k` of the shared axis (512 columns) of both operands' row blocks and adds the product to the accumulator,
  which position `0` first sets to zero. So after position `k` entry `(p, q)` of the accumulator is the left fold
  `0 + s₀ + s₁ + … + s_k` of the blocks' partial sums of that entry's row of `A` against its row of `B`; after position 15
  it is the whole sum (a finite sum on the extended reals may be regrouped), and the block stored there is its maximum
  with zero. The groups' blocks tile the output array.
-/
import proofs.«170804_j68015102099870_2_alg».proof.Proof.IdealSide.Layer3Body
import proofs.«170804_j68015102099870_2_alg».proof.Proof.Spec
import proofs.«170804_j68015102099870_2_alg».proof.Proof.BlockSum
import proofs.«170804_j68015102099870_2_alg».proof.Proof.Payloads
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.Mlp

variable (V : (c : Dev nD) → (b : Ref sig .tc) → Buf (Elt Ideal) ((c : Thread nD τ).loc b))

/-- The printed index maps over the grid, by the position's quotients and remainders. -/
theorem idx_facts2 : ∀ t : Fin cfg2.N,
    win2_0.index t (0 : Fin 2) = t.val / 128 ∧ win2_0.index t (1 : Fin 2) = t.val % 16
    ∧ win2_1.index t (0 : Fin 2) = t.val / 16 % 8 ∧ win2_1.index t (1 : Fin 2) = t.val % 16
    ∧ win2_2.index t (0 : Fin 2) = t.val / 128 ∧ win2_2.index t (1 : Fin 2) = t.val / 16 % 8 :=
  (by decide +kernel : ∀ t : Fin grid2.N, _)

theorem lt256 (t : Fin cfg2.N) : t.val < 256 := lt_of_lt_of_eq t.isLt (show cfg2.N = 256 from N_2)

/-- Row `p`, column `j` of the left operand's block at position `g · 16 + k`. -/
theorem read2_0 (c : Dev nD) (g k : ℕ) (hg : g < 16) (hk : k < 16) (t : Fin cfg2.N) (ht : t.val = g * 16 + k)
    (p : Fin 2048) (j : Fin 512) :
    iblk2 V c 0 t (ix2 p j)
      = V c main_v2 (ix2 (⟨g / 8 * 2048 + p.val, by have := p.isLt; omega⟩ : Fin 4096) (⟨k * 512 + j.val, by have := j.isLt; omega⟩ : Fin 8192)) := by
  obtain ⟨e0, e1, -⟩ := idx_facts2 t
  show V c main_v2 (((cfg2.win 0).blk t).view.emb (ix2 p j)) = _
  refine congrArg (V c main_v2) ?_
  funext a; apply Fin.ext
  match a with
  | ⟨0, _⟩ => show win2_0.index t (0 : Fin 2) * 2048 + 1 * p.val = g / 8 * 2048 + p.val; omega
  | ⟨1, _⟩ => show win2_0.index t (1 : Fin 2) * 512 + 1 * j.val = k * 512 + j.val; omega

/-- Row `q`, column `j` of the right operand's block at position `g · 16 + k`. -/
theorem read2_1 (c : Dev nD) (g k : ℕ) (hg : g < 16) (hk : k < 16) (t : Fin cfg2.N) (ht : t.val = g * 16 + k)
    (q : Fin 1024) (j : Fin 512) :
    iblk2 V c 1 t (ix2 q j)
      = V c main_arg4 (ix2 (⟨g % 8 * 1024 + q.val, by have := q.isLt; omega⟩ : Fin 8192) (⟨k * 512 + j.val, by have := j.isLt; omega⟩ : Fin 8192)) := by
  obtain ⟨-, -, e2, e3, -⟩ := idx_facts2 t
  show V c main_arg4 (((cfg2.win 1).blk t).view.emb (ix2 q j)) = _
  refine congrArg (V c main_arg4) ?_
  funext a; apply Fin.ext
  match a with
  | ⟨0, _⟩ => show win2_1.index t (0 : Fin 2) * 1024 + 1 * q.val = g % 8 * 1024 + q.val; omega
  | ⟨1, _⟩ => show win2_1.index t (1 : Fin 2) * 512 + 1 * j.val = k * 512 + j.val; omega

/-- Where entry `(p, q)` of the block written back at position `g · 16 + k` sits in the output array. -/
theorem emb2_2 (g k : ℕ) (hg : g < 16) (hk : k < 16) (t : Fin cfg2.N) (ht : t.val = g * 16 + k) (p : Fin 2048) (q : Fin 1024) :
    ((cfg2.win 2).blk t).view.emb (ix2 p q)
      = ix2 (⟨g / 8 * 2048 + p.val, by have := p.isLt; omega⟩ : Fin 4096) (⟨g % 8 * 1024 + q.val, by have := q.isLt; omega⟩ : Fin 8192) := by
  obtain ⟨-, -, -, -, e4, e5⟩ := idx_facts2 t
  funext a; apply Fin.ext
  match a with
  | ⟨0, _⟩ => show win2_2.index t (0 : Fin 2) * 2048 + 1 * p.val = g / 8 * 2048 + p.val; omega
  | ⟨1, _⟩ => show win2_2.index t (1 : Fin 2) * 1024 + 1 * q.val = g % 8 * 1024 + q.val; omega

/-- The product of the two blocks at position `g · 16 + k`, at entry `(p, q)`, is block `k`'s partial sum of the entry's
    row of the left array against its row of the right array. -/
theorem blockProd2 (c : Dev nD) (g k : ℕ) (hg : g < 16) (hk : k < 16) (t : Fin cfg2.N) (ht : t.val = g * 16 + k)
    (p : Fin 2048) (q : Fin 1024) (x0 : Vec Ideal S2048x512 .bf16) (x1 : Vec Ideal S1024x512 .f32)
    (h0 : x0 = iblk2 V c 0 t) (h1 : x1 = iblk2 V c 1 t) :
    (∑ j : Fin 512, x0 (ix2 p j) * x1 (ix2 q j))
      = dotBlock 16 512 (V c main_v2) (V c main_arg4) (⟨g / 8 * 2048 + p.val, by have := p.isLt; omega⟩ : Fin 4096) (⟨g % 8 * 1024 + q.val, by have := q.isLt; omega⟩ : Fin 8192) k := by
  subst h0; subst h1
  unfold dotBlock
  rw [dif_pos hk]
  refine Finset.sum_congr rfl fun j _ => ?_
  rw [read2_0 V c g k hg hk t ht p j, read2_1 V c g k hg hk t ht q j]

/-- The accumulator does not depend on how its position is written. -/
theorem acc2_congr (c : Dev nD) {n n' : ℕ} (h : n = n') (hn : n < cfg2.N) (hn' : n' < cfg2.N) :
    acc2 V c n hn = acc2 V c n' hn' := by subst h; rfl

/-- THE ACCUMULATOR within a group: after position `g · 16 + k` its entry `(p, q)` is the left fold of the first `k + 1`
    blocks' partial sums. -/
theorem acc2_group (c : Dev nD) (g : ℕ) (hg : g < 16) (p : Fin 2048) (q : Fin 1024) :
    ∀ (k : ℕ) (hk : k < 16) (hn : g * 16 + k < cfg2.N),
      acc2 V c (g * 16 + k) hn (ix2 p q)
        = accN (fun kb => dotBlock 16 512 (V c main_v2) (V c main_arg4) (⟨g / 8 * 2048 + p.val, by have := p.isLt; omega⟩ : Fin 4096) (⟨g % 8 * 1024 + q.val, by have := q.isLt; omega⟩ : Fin 8192) kb) k
  | 0, hk, hn => by
    have h := acc2_first V c ⟨g * 16 + 0, hn⟩ (by show (g * 16 + 0) % 16 = 0; omega)
    rw [show acc2 V c (g * 16 + 0) hn = _ from h, Cert.Mlp.Pay.k2_pay2_apply, Cert.Mlp.Pay.k2_pay1_apply,
      blockProd2 V c g 0 hg hk ⟨g * 16 + 0, hn⟩ rfl p q _ _ rfl rfl]
    rfl
  | k + 1, hk, hn => by
    have h := acc2_next V c ⟨g * 16 + (k + 1), hn⟩ (by show ¬(g * 16 + (k + 1)) % 16 = 0; omega)
    rw [show acc2 V c (g * 16 + (k + 1)) hn = _ from h, Cert.Mlp.Pay.k2_pay2_apply,
      blockProd2 V c g (k + 1) hg hk ⟨g * 16 + (k + 1), hn⟩ rfl p q _ _ rfl rfl,
      acc2_congr V c (show g * 16 + (k + 1) - 1 = g * 16 + k from rfl) _ (by omega),
      acc2_group c g hg p q k (by omega) (by omega)]
    rfl

/-- WHAT A FLUSHING POINT WRITES BACK (a last block of the shared axis) is its block of the layer's function of the arrays
    the region finds. -/
theorem flushed2_eq (c : Dev nD) (t : Fin cfg2.N) (hf : (cfg2.win 2).flush t = true) :
    (dat2 V c).flushed 2 t = ((cfg2.win 2).blk t).view.read (Elt Ideal) (layer3 (V c main_v2) (V c main_arg4)) := by
  have h15 : t.val % 16 = 15 := (flush2_2 t).mp hf
  have hN := lt256 t
  have hg : t.val / 16 < 16 := by omega
  have ht : t.val = t.val / 16 * 16 + 15 := by omega
  show (cfg2.win 2).cut (grid2.coords t) ((dat2 V c).after 2 t) = _
  rw [after2_2]
  funext j
  obtain ⟨p, q, rfl⟩ : ∃ (p : Fin 2048) (q : Fin 1024), j = ix2 p q := ⟨j 0, j 1, eq_ix2 j⟩
  show k2_pay3 (F := Ideal) (acc2 V c t.val t.isLt) (ix2 p q)
    = layer3 (V c main_v2) (V c main_arg4) (((cfg2.win 2).blk t).view.emb (ix2 p q))
  rw [emb2_2 (t.val / 16) 15 hg (by omega) t ht p q, Cert.Mlp.Pay.k2_pay3_apply,
    acc2_congr V c ht t.isLt (by omega), acc2_group V c (t.val / 16) hg p q 15 (by omega) (by omega), accN_eq_sum]
  exact congrArg (fun z => max z 0) (dotRow_eq_blocks 16 512 (V c main_v2) (V c main_arg4) _ _).symm

/-- An index of the output array is in point `t`'s block iff each coordinate is in the block's range on its axis. -/
theorem mem_blk2 (t : Fin cfg2.N) (i : S4096x8192.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v3).slice (win2_2.rect t)).set ↔ _
  rw [View.set_slice_whole, Rect.mem_set_unit]
  exact Iff.rfl

/-- The groups' blocks tile the array: index `(r, s)` is in the block written at the last position of its group. -/
theorem cover2 (i : S4096x8192.Idx) :
    ∃ t : Fin cfg2.N, (cfg2.win 2).flush t = true ∧ i ∈ ((cfg2.win 2).blk t).view.set := by
  have hi0 : (i 0).val < 4096 := (i 0).isLt
  have hi1 : (i 1).val < 8192 := (i 1).isLt
  let t : Fin cfg2.N := ⟨((i 0).val / 2048 * 8 + (i 1).val / 1024) * 16 + 15, by rw [show cfg2.N = 256 from N_2]; omega⟩
  have ht : t.val = ((i 0).val / 2048 * 8 + (i 1).val / 1024) * 16 + 15 := rfl
  obtain ⟨-, -, -, -, e4, e5⟩ := idx_facts2 t
  refine ⟨t, (flush2_2 t).mpr (by omega), ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- THE ARRAY the region leaves: the third layer of the arrays it found. -/
theorem layer3_value (c : Dev nD) :
    (dat2 V c).arrAt 2 cfg2.N = layer3 (V c main_v2) (V c main_arg4) :=
  (dat2 V c).arrAt_eq_of_cover 2 _ (fun t hf => flushed2_eq V c t hf) cover2

end Cert.KernelIdeal.HandValue

end
-- ==== Proof.IdealSide.Result.lean ====
/-
  The result array as the whole network of the launch arrays.

  The third region's final array is the third layer of what it found: the second region's final array and the launch
  weights; the second's is the second layer of the first's and its launch weights; the first's is the first layer of the
  two launch matrices and the bias row the host reshaped — whose column `q` is the bias entry `q`. Composed, the result is
  the network of the five launch arrays.
-/
import proofs.«170804_j68015102099870_2_alg».proof.Proof.IdealSide.Ends
import proofs.«170804_j68015102099870_2_alg».proof.Proof.IdealSide.Layer1Value
import proofs.«170804_j68015102099870_2_alg».proof.Proof.IdealSide.Layer2Value
import proofs.«170804_j68015102099870_2_alg».proof.Proof.IdealSide.Layer3Value
import proofs.«170804_j68015102099870_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.Mlp

variable (m : (ℓ : Loc nD τ sig) → Buf (Elt Ideal) ℓ) (ρ : Dev nD → PrngReg)

/-- What the first region finds in the bias row: the bias reshaped from 4096 entries to a 1 × 4096 row. -/
theorem V1_main_v0 (c : Dev nD) :
    V1 m ρ c main_v0 = shapeCast S1x4096 (m ((c : Thread nD τ).loc main_arg2)) shapeCasts_S4096_S1x4096 := by
  show StableHlo.after hostOps0 (W0 m ρ c) (Proc.devRef .tc main_v0) = _
  after_results
  rfl

/-- Column `q` of that row is entry `q` of the bias. -/
theorem biasRow_apply (v : S4096.Idx → Elt Ideal .f32) (u : Fin 1) (q : Fin 4096) :
    shapeCast S1x4096 v shapeCasts_S4096_S1x4096 (ix2 u q) = v (ix1 q) := by
  refine (shapeCast_addUnit_apply (n := 1) ![4096] v shapeCasts_S4096_S1x4096 (ix2 u q)).trans ?_
  exact congrArg v (funext fun a => by match a with | ⟨0, _⟩ => rfl)

/-- The first region's final array is the first layer of the launch arrays. -/
theorem layer1_launch (c : Dev nD) :
    (dat0 (V1 m ρ) c).arrAt 3 cfg0.N
      = layer1 (m ((c : Thread nD τ).loc main_arg0)) (m ((c : Thread nD τ).loc main_arg1)) (m ((c : Thread nD τ).loc main_arg2)) := by
  rw [layer1_value, V1_main_arg0, V1_main_arg1, V1_main_v0]
  funext i
  unfold layer1Row layer1
  exact congrArg (fun z => max (dotRow (m ((c : Thread nD τ).loc main_arg0)) (m ((c : Thread nD τ).loc main_arg1)) (i 0) (i 1) + z) 0)
    (biasRow_apply (m ((c : Thread nD τ).loc main_arg2)) 0 (i 1))

/-- THE RESULT: the third region's final array is the network of the five launch arrays. -/
theorem result_eq (c : Dev nD) :
    (dat2 (V3 m ρ) c).arrAt 2 cfg2.N
      = network (m ((c : Thread nD τ).loc main_arg0)) (m ((c : Thread nD τ).loc main_arg1)) (m ((c : Thread nD τ).loc main_arg2))
          (m ((c : Thread nD τ).loc main_arg3)) (m ((c : Thread nD τ).loc main_arg4)) := by
  rw [layer3_value, V3_main_v2, V3_main_arg4, layer2_value, V2_main_v1, V2_main_arg3, layer1_launch]
  rfl

end Cert.KernelIdeal.HandValue

end
-- ==== Proof.RefValue.lean ====
/-
  The reference program's result is the network of the specification, at the ideal values (the extended reals).

  Each of the reference's three products is, entry by entry, the sum over the shared (minor) axis of
  `left (p, k) * right (q, k)`; the bias vector is broadcast to a one-row array and then down the rows, so that entry
  `(p, q)` receives `bd q`; and each `relu` is the maximum with a broadcast scalar whose word is the number zero.
-/
import proofs.«170804_j68015102099870_2_alg».proof.Proof.Spec
import proofs.«170804_j68015102099870_2_alg».proof.Proof.Gen.ReferenceIdeal.Read

noncomputable section

open scoped BigOperators

namespace Cert.Mlp.Ref

open Cert.ReferenceIdeal Cert.ReferenceIdeal.Gen Cert.ReferenceIdeal.Read Idealize.ShloMosaic Idealize.ShloMosaic.ValueIdx
  Idealize.ShloMosaic.StableHlo

/-- The first layer: product, broadcast bias, maximum with zero. -/
theorem v4_eq (x Wd : (⟨S4096x1024, .f32⟩ : BufTy).Contents (Elt Ideal)) (bd : (⟨S4096, .f32⟩ : BufTy).Contents (Elt Ideal)) :
    val_main_v4 (F := Ideal) x Wd bd = layer1 x Wd bd := by
  funext i
  rw [val_main_v4_apply, val_main_v3_apply, val_main_v0_apply, val_main_v2_apply, val_main_v1_apply,
    val_main_call0_v0_apply, val_main_call0_cst_apply, Ideal.maximumf_def, Ideal.addf_def, Ideal.ofBits_def,
    Ideal.ofBits_zero_f32]
  have hl : ∀ k, lidx_main_v0 i k = ix2 (i 0) k := fun k => funext fun d => by
    match d with | ⟨0, _⟩ => rfl | ⟨1, _⟩ => rfl
  have hr : ∀ k, ridx_main_v0 i k = ix2 (i 1) k := fun k => funext fun d => by
    match d with | ⟨0, _⟩ => rfl | ⟨1, _⟩ => rfl
  have hb : idx_main_v1 (idx_main_v2 i) = ix1 (i 1) := funext fun d => by
    match d with | ⟨0, _⟩ => rfl
  rw [hb]
  unfold layer1 dotRow
  exact congrArg (fun s => max (s + bd (ix1 (i 1))) 0) (Finset.sum_congr rfl fun k _ => by rw [hl k, hr k]; rfl)

/-- The second layer: product of the first layer's result, maximum with zero. -/
theorem v6_eq (x Wd : (⟨S4096x1024, .f32⟩ : BufTy).Contents (Elt Ideal)) (bd : (⟨S4096, .f32⟩ : BufTy).Contents (Elt Ideal)) (W1 : (⟨S8192x4096, .f32⟩ : BufTy).Contents (Elt Ideal)) :
    val_main_v6 (F := Ideal) x Wd bd W1 = layer2 (layer1 x Wd bd) W1 := by
  funext i
  rw [val_main_v6_apply, val_main_v5_apply, val_main_call1_v0_apply, val_main_call1_cst_apply, v4_eq,
    Ideal.maximumf_def, Ideal.ofBits_def, Ideal.ofBits_zero_f32]
  have hl : ∀ k, lidx_main_v5 i k = ix2 (i 0) k := fun k => funext fun d => by
    match d with | ⟨0, _⟩ => rfl | ⟨1, _⟩ => rfl
  have hr : ∀ k, ridx_main_v5 i k = ix2 (i 1) k := fun k => funext fun d => by
    match d with | ⟨0, _⟩ => rfl | ⟨1, _⟩ => rfl
  unfold layer2 dotRow
  exact congrArg (fun s => max s 0) (Finset.sum_congr rfl fun k _ => by rw [hl k, hr k]; rfl)

/-- The third layer: product of the second layer's result, maximum with zero. -/
theorem v8_eq (x Wd : (⟨S4096x1024, .f32⟩ : BufTy).Contents (Elt Ideal)) (bd : (⟨S4096, .f32⟩ : BufTy).Contents (Elt Ideal)) (W1 : (⟨S8192x4096, .f32⟩ : BufTy).Contents (Elt Ideal)) (W2 : (⟨S8192x8192, .f32⟩ : BufTy).Contents (Elt Ideal)) :
    val_main_v8 (F := Ideal) x Wd bd W1 W2 = layer3 (layer2 (layer1 x Wd bd) W1) W2 := by
  funext i
  rw [val_main_v8_apply, val_main_v7_apply, val_main_call2_v0_apply, val_main_call2_cst_apply, v6_eq,
    Ideal.maximumf_def, Ideal.ofBits_def, Ideal.ofBits_zero_f32]
  have hl : ∀ k, lidx_main_v7 i k = ix2 (i 0) k := fun k => funext fun d => by
    match d with | ⟨0, _⟩ => rfl | ⟨1, _⟩ => rfl
  have hr : ∀ k, ridx_main_v7 i k = ix2 (i 1) k := fun k => funext fun d => by
    match d with | ⟨0, _⟩ => rfl | ⟨1, _⟩ => rfl
  unfold layer3 dotRow
  exact congrArg (fun s => max s 0) (Finset.sum_congr rfl fun k _ => by rw [hl k, hr k]; rfl)

/-- The term the reference's run states for its result, over any five argument arrays, is the network. -/
theorem reference_eq (x Wd : (⟨S4096x1024, .f32⟩ : BufTy).Contents (Elt Ideal)) (bd : (⟨S4096, .f32⟩ : BufTy).Contents (Elt Ideal)) (W1 : (⟨S8192x4096, .f32⟩ : BufTy).Contents (Elt Ideal)) (W2 : (⟨S8192x8192, .f32⟩ : BufTy).Contents (Elt Ideal)) :
    maximumf (F := Ideal) (Host.dotGeneral (φ₁ := .f32) (φ₂ := .f32) dot_S4096x8192_S8192x8192_S4096x8192_1_1_0_0_n_n none (maximumf (Host.dotGeneral (φ₁ := .f32) (φ₂ := .f32) dot_S4096x4096_S8192x4096_S4096x8192_1_1_0_0_n_n none (maximumf (addf (Host.dotGeneral (φ₁ := .f32) (φ₂ := .f32) dot_S4096x1024_S4096x1024_S4096x4096_1_1_0_0_n_n none (x) (Wd)) (broadcastInDim S4096x4096 ![0, 1] bcast_S1x4096_S4096x4096_0_1 (broadcastInDim S1x4096 ![1] bcast_S4096_S1x4096_1 (bd)))) (broadcastInDim S4096x4096 ![] bcast_S_S4096x4096 (constant S_ .f32 0x00000000#32))) (W1)) (broadcastInDim S4096x8192 ![] bcast_S_S4096x8192 (constant S_ .f32 0x00000000#32))) (W2)) (broadcastInDim S4096x8192 ![] bcast_S_S4096x8192 (constant S_ .f32 0x00000000#32))
      = network x Wd bd W1 W2 :=
  (val_main_v8_eq (F := Ideal) x Wd bd W1 W2).trans (v8_eq x Wd bd W1 W2)

end Cert.Mlp.Ref

end
-- ==== Proof.lean ====
/-
  The certificate: a three-layer network computed by three tiled kernels equals the plain three-layer reference over
  the extended reals, and all three programs run to the end with their arguments unchanged.

  Each layer is `relu (A · Bᵀ)` (the first with a bias row added before the maximum with zero). The kernels compute the
  second and third products a block of the shared axis at a time into an accumulator that starts at zero; the reference
  computes each product whole. A finite sum on the extended reals may be regrouped freely (addition there is associative
  and commutative also at the infinities), so the blocked sum is the whole sum and the two results agree entry by entry;
  finiteness of the inputs is never used. A change of float format is the identity at the ideal values, so the
  intermediate arrays stored in a narrower format change nothing.

  The frames of the two kernel programs are one argument written for any float instance: the program is four segments
  (a host reshape of the bias and the three regions); each region's body is run at a generic grid point, the second and
  third carrying the accumulator in the region's invariant; the run's post reads every unscoped buffer, from which both the
  arguments' preservation and the result's value are read. The reference's frame is its run with the result dropped.
  The idealized kernel is the kernel's own text read at the ideal values: nothing was rewritten, so there is nothing to
  preserve.
-/
import proofs.«170804_j68015102099870_2_alg».proof.Defs
import proofs.«170804_j68015102099870_2_alg».proof.Proof.Gen.Kernel
import proofs.«170804_j68015102099870_2_alg».proof.Proof.Gen.KernelIdeal
import proofs.«170804_j68015102099870_2_alg».proof.Proof.Gen.ReferenceIdeal
import proofs.«170804_j68015102099870_2_alg».proof.Proof.Gen.Pre_finite_inputs
import proofs.«170804_j68015102099870_2_alg».proof.Proof.Gen.ReferenceIdeal.Run
import proofs.«170804_j68015102099870_2_alg».proof.Proof.Gen.ReferenceIdeal.Read
import proofs.«170804_j68015102099870_2_alg».proof.Proof.BitsSide.Ends
import proofs.«170804_j68015102099870_2_alg».proof.Proof.IdealSide.Ends
import proofs.«170804_j68015102099870_2_alg».proof.Proof.IdealSide.Result
import proofs.«170804_j68015102099870_2_alg».proof.Proof.RefValue
import proofs.«170804_j68015102099870_2_alg».proof.Proof.Spec
import Idealize.ShloMosaic.Adequacy
import Idealize.ShloMosaic.Init

noncomputable section

namespace Cert.Proof

open Idealize.ShloMosaic Idealize.SL.Sem

/-- The kernel program as printed runs to the end with its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten on the way to the ideal reading. -/
theorem preserves : Cert.preserves_Kernel_KernelIdeal := trivial

/-- At the ideal values both programs, run from memories agreeing on the arguments, end with the network of the five
    argument arrays in their result: the kernel's result is the third region's final array, which is the network of the
    launch arrays layer by layer; the reference's composed term is the same function; and the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Mlp.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.HandValue.result_eq m ρ c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    have h8 := (h c).1
    rw [Cert.Mlp.Ref.reference_eq] at h8
    rw [h8, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
